-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000x3 : Shape := ⟨3, ![64, 100000, 3]⟩
abbrev S40x512 : Shape := ⟨2, ![40, 512]⟩
abbrev S40 : Shape := ⟨1, ![40]⟩
abbrev S_ : Shape := ⟨0, ![]⟩

class Facts : Prop where
  bcast_S_S64x100000x3 : S_.BroadcastsInDim S64x100000x3 (![] : Fin 0 → Fin S64x100000x3.rank)
  reducesTo_S64x100000x3_S_d0_1_2 : S64x100000x3.ReducesTo [0, 1, 2] S_
  h_S_ : 0 < S_.numel
  bcast_S_S40x512 : S_.BroadcastsInDim S40x512 (![] : Fin 0 → Fin S40x512.rank)
  reducesTo_S40x512_S_d0_1 : S40x512.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S64x100000x3 .f32) (main_arg1 : FVec F S40x512 .f32) (main_arg2 : FVec F S40 .f32) : IVec S_ 1 :=
  let main_v0 : FVec F S64x100000x3 .f32 := Host.absf main_arg0
  let main_cst : FVec F S_ .f32 := constant S_ .f32 0x7F800000#32
  let main_v1 : FVec F S64x100000x3 .f32 := broadcastInDim S64x100000x3 ![] bcast_S_S64x100000x3 main_cst
  let main_v2 : IVec S64x100000x3 1 := cmpf .olt main_v0 main_v1
  let main_c : IVec S_ 1 := constantI S_ 1 1#1
  let main_v3 : IVec S_ 1 := (fun x v => Host.reduce IntOp.andi x v reducesTo_S64x100000x3_S_d0_1_2 h_S_) main_v2 main_c
  let main_v4 : FVec F S40x512 .f32 := Host.absf main_arg1
  let main_cst_0 : FVec F S_ .f32 := constant S_ .f32 0x7F800000#32
  let main_v5 : FVec F S40x512 .f32 := broadcastInDim S40x512 ![] bcast_S_S40x512 main_cst_0
  let main_v6 : IVec S40x512 1 := cmpf .olt main_v4 main_v5
  let main_c_1 : IVec S_ 1 := constantI S_ 1 1#1
  let main_v7 : IVec S_ 1 := (fun x v => Host.reduce IntOp.andi x v reducesTo_S40x512_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S64x100000x3 : Shape := ⟨3, ![64, 100000, 3]⟩
abbrev S40x512 : Shape := ⟨2, ![40, 512]⟩
abbrev S40 : Shape := ⟨1, ![40]⟩
abbrev S64x3x100000 : Shape := ⟨3, ![64, 3, 100000]⟩
abbrev S64x3x1 : Shape := ⟨3, ![64, 3, 1]⟩
abbrev S1x3x100000 : Shape := ⟨3, ![1, 3, 100000]⟩
abbrev S1x3x1 : Shape := ⟨3, ![1, 3, 1]⟩
abbrev S1x3 : Shape := ⟨2, ![1, 3]⟩
abbrev S64x1x512 : Shape := ⟨3, ![64, 1, 512]⟩
abbrev S1x1x512 : Shape := ⟨3, ![1, 1, 512]⟩
abbrev S64x8 : Shape := ⟨2, ![64, 8]⟩
abbrev S1x3x12500 : Shape := ⟨3, ![1, 3, 12500]⟩
abbrev S1x1x12500 : Shape := ⟨3, ![1, 1, 12500]⟩
abbrev S12500 : Shape := ⟨1, ![12500]⟩
abbrev S64x12500 : Shape := ⟨2, ![64, 12500]⟩
abbrev S1x12500 : Shape := ⟨2, ![1, 12500]⟩
abbrev S8x12500 : Shape := ⟨2, ![8, 12500]⟩
abbrev S64x512 : Shape := ⟨2, ![64, 512]⟩
abbrev S_ : Shape := ⟨0, ![]⟩
abbrev S512x40 : Shape := ⟨2, ![512, 40]⟩
abbrev S64x40 : Shape := ⟨2, ![64, 40]⟩
abbrev S1x40 : Shape := ⟨2, ![1, 40]⟩

abbrev nBuf : Space → Nat
  | .hbm => 16
  | .vmem => 14
  | .smem => 0
  | _ => 0

abbrev bufTy : (tb : Table) → Fin (tcTables nBuf tb) → BufTy
  | .hbm, ⟨0, _⟩ => ⟨S64x100000x3, .f32⟩
  | .hbm, ⟨1, _⟩ => ⟨S40x512, .f32⟩
  | .hbm, ⟨2, _⟩ => ⟨S40, .f32⟩
  | .hbm, ⟨3, _⟩ => ⟨S64x3x100000, .f32⟩
  | .hbm, ⟨4, _⟩ => ⟨S64x3x1, .f32⟩
  | .hbm, ⟨5, _⟩ => ⟨S64x3x1, .f32⟩
  | .hbm, ⟨6, _⟩ => ⟨S64x1x512, .f32⟩
  | .hbm, ⟨7, _⟩ => ⟨S64x512, .f32⟩
  | .hbm, ⟨8, _⟩ => ⟨S_, .f32⟩
  | .hbm, ⟨9, _⟩ => ⟨S64x512, .f32⟩
  | .hbm, ⟨10, _⟩ => ⟨S64x512, .f32⟩
  | .hbm, ⟨11, _⟩ => ⟨S512x40, .f32⟩
  | .hbm, ⟨12, _⟩ => ⟨S64x40, .f32⟩
  | .hbm, ⟨13, _⟩ => ⟨S1x40, .f32⟩
  | .hbm, ⟨14, _⟩ => ⟨S64x40, .f32⟩
  | .hbm, ⟨15, _⟩ => ⟨S64x40, .f32⟩
  | .local _ .vmem, ⟨0, _⟩ => ⟨S1x3x100000, .f32⟩
  | .local _ .vmem, ⟨1, _⟩ => ⟨S1x3x100000, .f32⟩
  | .local _ .vmem, ⟨2, _⟩ => ⟨S1x3x1, .f32⟩
  | .local _ .vmem, ⟨3, _⟩ => ⟨S1x3x1, .f32⟩
  | .local _ .vmem, ⟨4, _⟩ => ⟨S1x3x1, .f32⟩
  | .local _ .vmem, ⟨5, _⟩ => ⟨S1x3x1, .f32⟩
  | .local _ .vmem, ⟨6, _⟩ => ⟨S1x3x100000, .f32⟩
  | .local _ .vmem, ⟨7, _⟩ => ⟨S1x3x100000, .f32⟩
  | .local _ .vmem, ⟨8, _⟩ => ⟨S1x3x1, .f32⟩
  | .local _ .vmem, ⟨9, _⟩ => ⟨S1x3x1, .f32⟩
  | .local _ .vmem, ⟨10, _⟩ => ⟨S1x3x1, .f32⟩
  | .local _ .vmem, ⟨11, _⟩ => ⟨S1x3x1, .f32⟩
  | .local _ .vmem, ⟨12, _⟩ => ⟨S1x1x512, .f32⟩
  | .local _ .vmem, ⟨13, _⟩ => ⟨S1x1x512, .f32⟩
  | _, _ => ⟨S64x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

@[reducible] def k1_t1_loop : Scf.Loop 32 :=
  let c0_i32 : BitVec 32 := 0#32
  let c8_i32 : BitVec 32 := 8#32
  let v12 : BitVec 32 := Scalar.addi c0_i32 c8_i32
  let c1_i32 : BitVec 32 := 1#32
  ⟨c0_i32, v12, c1_i32⟩
def k1_off1 (k1_t1 : Fin k1_t1_loop.trips) : Fin 3 → Nat :=
  let c0_12 : Index := 0#32
  let c0_13 : Index := 0#32
  let c0_i32 : BitVec 32 := 0#32
  let c1_i32 : BitVec 32 := 1#32
  let arg5 : BitVec 32 := Scf.iv c0_i32 c1_i32 k1_t1
  let c12500_i32 : BitVec 32 := 12500#32
  let v16 : BitVec 32 := Scalar.muli arg5 c12500_i32
  let v17 : Index := Scalar.indexCast v16
  ![0, 0, v17.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x3x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S64x100000x3_S64x3x100000_0_2_1 : S64x100000x3.Transposes [0, 2, 1] S64x3x100000
  inb_S1x3x100000_S1x3x100000_0_0_0 : ∀ a, (![0, 0, 0] : Fin 3 → Nat) a + S1x3x100000.size a ≤ S1x3x100000.size a
  h_S1x3x100000 : 0 < S1x3x100000.numel
  shapeCasts_S1x3x100000_S1x3x100000 : S1x3x100000.ShapeCasts S1x3x100000
  reduces_S1x3x100000_S1x3 : S1x3x100000.Reduces [2] S1x3
  shapeCasts_S1x3_S1x3x1 : S1x3.ShapeCasts S1x3x1
  inb_S1x3x1_S1x3x1_0_0_0 : ∀ a, (![0, 0, 0] : Fin 3 → Nat) a + S1x3x1.size a ≤ S1x3x1.size a
  h_S1x3x1 : 0 < S1x3x1.numel
  shapeCasts_S1x3x1_S1x3x1 : S1x3x1.ShapeCasts S1x3x1
  h_S1x3x12500 : 0 < S1x3x12500.numel
  shapeCasts_S1x3x12500_S1x3x12500 : S1x3x12500.ShapeCasts S1x3x12500
  broadcasts_S1x3x1_S1x3x12500 : S1x3x1.Broadcasts S1x3x12500
  slices_S1x3x12500_o0_0_0_S1x1x12500 : S1x3x12500.Slices ![0, 0, 0] S1x1x12500
  shapeCasts_S1x1x12500_S12500 : S1x1x12500.ShapeCasts S12500
  slices_S1x3x12500_o0_1_0_S1x1x12500 : S1x3x12500.Slices ![0, 1, 0] S1x1x12500
  slices_S1x3x12500_o0_2_0_S1x1x12500 : S1x3x12500.Slices ![0, 2, 0] S1x1x12500
  iota_S64x12500_d0_w32 : S64x12500.Iotas .tc 32 [0]
  shapeCasts_S12500_S1x12500 : S12500.ShapeCasts S1x12500
  broadcasts_S1x12500_S64x12500 : S1x12500.Broadcasts S64x12500
  natLt_1_32 : 1 < 32
  bitsLt_bf16_f32 : FTy.bits .bf16 < FTy.bits .f32
  iota_S8x12500_d0_w32 : S8x12500.Iotas .tc 32 [0]
  broadcasts_S1x12500_S8x12500 : S1x12500.Broadcasts S8x12500
  shapeCasts_S64x8_S1x1x512 : S64x8.ShapeCasts S1x1x512
  inb_S1x1x512_S1x1x512_0_0_0 : ∀ a, (![0, 0, 0] : Fin 3 → Nat) a + S1x1x512.size a ≤ S1x1x512.size a
  h_S1x1x512 : 0 < S1x1x512.numel
  shapeCasts_S64x1x512_S64x512 : S64x1x512.ShapeCasts S64x512
  bcast_S_S64x512 : S_.BroadcastsInDim S64x512 (![] : Fin 0 → Fin S64x512.rank)
  transposes_S40x512_S512x40_1_0 : S40x512.Transposes [1, 0] S512x40
  bcast_S40_S1x40_1 : S40.BroadcastsInDim S1x40 (![1] : Fin 1 → Fin S1x40.rank)
  bcast_S1x40_S64x40_0_1 : S1x40.BroadcastsInDim S64x40 (![0, 1] : Fin 2 → Fin S64x40.rank)
  dot_S64x12500_S8x12500_S64x8_1_1_0_0_n_n_wf : DotDims.WF S64x12500 S8x12500 S64x8 [1] [1] [0] [0] [] []
  dot_S64x512_S512x40_S64x40_1_0_0_1_n_n_wf : DotDims.WF S64x512 S512x40 S64x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x100000.size a ≤ S64x3x100000.size a
  hwx0_0 : ∀ i : grid0.Coords, EltTy.bits .f32 = 32 ∨ (Rect.block (s := S64x3x100000) S1x3x100000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1.size a ≤ S64x3x1.size a
  hwx0_1 : ∀ i : grid0.Coords, EltTy.bits .f32 = 32 ∨ (Rect.block (s := S64x3x1) S1x3x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x1.size a ≤ S64x3x1.size a
  hwx0_2 : ∀ i : grid0.Coords, EltTy.bits .f32 = 32 ∨ (Rect.block (s := S64x3x1) S1x3x1.size (cc0_transform_2 i) (hinb0_2 i)).WholeWords (EltTy.packing .f32)
  hrank1 : 0 < grid1.rank
  k1_t1_ok : k1_t1_loop.OK
  k1_off1_inb : ∀ k1_t1 : Fin k1_t1_loop.trips, ∀ a, (k1_off1 k1_t1) a + S1x3x12500.size a ≤ S1x3x100000.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x100000.size a ≤ S64x3x100000.size a
  hwx1_0 : ∀ i : grid1.Coords, EltTy.bits .f32 = 32 ∨ (Rect.block (s := S64x3x100000) S1x3x100000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x1.size a ≤ S64x3x1.size a
  hwx1_1 : ∀ i : grid1.Coords, EltTy.bits .f32 = 32 ∨ (Rect.block (s := S64x3x1) S1x3x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3x1.size a ≤ S64x3x1.size a
  hwx1_2 : ∀ i : grid1.Coords, EltTy.bits .f32 = 32 ∨ (Rect.block (s := S64x3x1) S1x3x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S64x1x512.size a
  hwx1_3 : ∀ i : grid1.Coords, EltTy.bits .f32 = 32 ∨ (Rect.block (s := S64x1x512) S1x1x512.size (cc1_transform_3 i) (hinb1_3 i)).WholeWords (EltTy.packing .f32)

variable [Facts₀]

def dot_S64x12500_S8x12500_S64x8_1_1_0_0_n_n : DotDims S64x12500 S8x12500 S64x8 where
  lhsContracting := [1]
  rhsContracting := [1]
  lhsNonContracting := [0]
  rhsNonContracting := [0]
  lhsBatch := []
  rhsBatch := []
  wf := dot_S64x12500_S8x12500_S64x8_1_1_0_0_n_n_wf
def dot_S64x512_S512x40_S64x40_1_0_0_1_n_n : DotDims S64x512 S512x40 S64x40 where
  lhsContracting := [1]
  rhsContracting := [0]
  lhsNonContracting := [0]
  rhsNonContracting := [1]
  lhsBatch := []
  rhsBatch := []
  wf := dot_S64x512_S512x40_S64x40_1_0_0_1_n_n_wf

abbrev win0_0 : Pipeline.Window sig grid0 :=
  Pipeline.Window.ofSpec (Memref.whole main_v0) S1x3x100000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x3x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x3x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x3x100000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1x3x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S1x3x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x100000x3 : Shape := ⟨3, ![64, 100000, 3]⟩
abbrev S40x512 : Shape := ⟨2, ![40, 512]⟩
abbrev S40 : Shape := ⟨1, ![40]⟩
abbrev S_ : Shape := ⟨0, ![]⟩
abbrev S64x3 : Shape := ⟨2, ![64, 3]⟩
abbrev S64x1x3 : Shape := ⟨3, ![64, 1, 3]⟩
abbrev S64x100000x1 : Shape := ⟨3, ![64, 100000, 1]⟩
abbrev S64x100000 : Shape := ⟨2, ![64, 100000]⟩
abbrev S64 : Shape := ⟨1, ![64]⟩
abbrev S64x1 : Shape := ⟨2, ![64, 1]⟩
abbrev S6400000 : Shape := ⟨1, ![6400000]⟩
abbrev S32768 : Shape := ⟨1, ![32768]⟩
abbrev S6400000x1 : Shape := ⟨2, ![6400000, 1]⟩
abbrev S64x512 : Shape := ⟨2, ![64, 512]⟩
abbrev S512x40 : Shape := ⟨2, ![512, 40]⟩
abbrev S64x40 : Shape := ⟨2, ![64, 40]⟩
abbrev S1x40 : Shape := ⟨2, ![1, 40]⟩

abbrev nBuf : Space → Nat
  | .hbm => 71
  | .vmem => 0
  | .smem => 0
  | _ => 0

abbrev bufTy : (tb : Table) → Fin (tcTables nBuf tb) → BufTy
  | .hbm, ⟨0, _⟩ => ⟨S64x100000x3, .f32⟩
  | .hbm, ⟨1, _⟩ => ⟨S40x512, .f32⟩
  | .hbm, ⟨2, _⟩ => ⟨S40, .f32⟩
  | .hbm, ⟨3, _⟩ => ⟨S_, .f32⟩
  | .hbm, ⟨4, _⟩ => ⟨S64x3, .f32⟩
  | .hbm, ⟨5, _⟩ => ⟨S64x1x3, .f32⟩
  | .hbm, ⟨6, _⟩ => ⟨S_, .f32⟩
  | .hbm, ⟨7, _⟩ => ⟨S64x3, .f32⟩
  | .hbm, ⟨8, _⟩ => ⟨S64x1x3, .f32⟩
  | .hbm, ⟨9, _⟩ => ⟨S64x1x3, .f32⟩
  | .hbm, ⟨10, _⟩ => ⟨S_, .f32⟩
  | .hbm, ⟨11, _⟩ => ⟨S64x1x3, .f32⟩
  | .hbm, ⟨12, _⟩ => ⟨S64x1x3, .i1⟩
  | .hbm, ⟨13, _⟩ => ⟨S_, .f32⟩
  | .hbm, ⟨14, _⟩ => ⟨S_, .f32⟩
  | .hbm, ⟨15, _⟩ => ⟨S64x1x3, .f32⟩
  | .hbm, ⟨16, _⟩ => ⟨S64x1x3, .f32⟩
  | .hbm, ⟨17, _⟩ => ⟨S_, .f32⟩
  | .hbm, ⟨18, _⟩ => ⟨S64x1x3, .f32⟩
  | .hbm, ⟨19, _⟩ => ⟨S64x1x3, .f32⟩
  | .hbm, ⟨20, _⟩ => ⟨S64x100000x3, .f32⟩
  | .hbm, ⟨21, _⟩ => ⟨S64x100000x3, .f32⟩
  | .hbm, ⟨22, _⟩ => ⟨S64x100000x3, .f32⟩
  | .hbm, ⟨23, _⟩ => ⟨S64x100000x3, .f32⟩
  | .hbm, ⟨24, _⟩ => ⟨S64x100000x3, .f32⟩
  | .hbm, ⟨25, _⟩ => ⟨S64x100000x3, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S64x100000x3, .i32⟩
  | .hbm, ⟨30, _⟩ => ⟨S64x100000x3, .i32⟩
  | .hbm, ⟨31, _⟩ => ⟨S_, .i32⟩
  | .hbm, ⟨32, _⟩ => ⟨S64x100000x3, .i32⟩
  | .hbm, ⟨33, _⟩ => ⟨S64x100000x3, .i32⟩
  | .hbm, ⟨34, _⟩ => ⟨S64x100000x1, .i32⟩
  | .hbm, ⟨35, _⟩ => ⟨S64x100000, .i32⟩
  | .hbm, ⟨36, _⟩ => ⟨S_, .i32⟩
  | .hbm, ⟨37, _⟩ => ⟨S64x100000, .i32⟩
  | .hbm, ⟨38, _⟩ => ⟨S64x100000, .i32⟩
  | .hbm, ⟨39, _⟩ => ⟨S64x100000x1, .i32⟩
  | .hbm, ⟨40, _⟩ => ⟨S64x100000, .i32⟩
  | .hbm, ⟨41, _⟩ => ⟨S64x100000, .i32⟩
  | .hbm, ⟨42, _⟩ => ⟨S_, .i32⟩
  | .hbm, ⟨43, _⟩ => ⟨S64x100000, .i32⟩
  | .hbm, ⟨44, _⟩ => ⟨S64x100000, .i32⟩
  | .hbm, ⟨45, _⟩ => ⟨S64x100000x1, .i32⟩
  | .hbm, ⟨46, _⟩ => ⟨S64x100000, .i32⟩
  | .hbm, ⟨47, _⟩ => ⟨S64x100000, .i32⟩
  | .hbm, ⟨48, _⟩ => ⟨S64, .i32⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S64x1, .i32⟩
  | .hbm, ⟨53, _⟩ => ⟨S64x100000, .i32⟩
  | .hbm, ⟨54, _⟩ => ⟨S64x100000, .i32⟩
  | .hbm, ⟨55, _⟩ => ⟨S_, .f32⟩
  | .hbm, ⟨56, _⟩ => ⟨S6400000, .f32⟩
  | .hbm, ⟨57, _⟩ => ⟨S6400000, .i32⟩
  | .hbm, ⟨58, _⟩ => ⟨S_, .f32⟩
  | .hbm, ⟨59, _⟩ => ⟨S32768, .f32⟩
  | .hbm, ⟨60, _⟩ => ⟨S6400000x1, .i32⟩
  | .hbm, ⟨61, _⟩ => ⟨S32768, .f32⟩
  | .hbm, ⟨62, _⟩ => ⟨S64x512, .f32⟩
  | .hbm, ⟨63, _⟩ => ⟨S_, .f32⟩
  | .hbm, ⟨64, _⟩ => ⟨S64x512, .f32⟩
  | .hbm, ⟨65, _⟩ => ⟨S64x512, .f32⟩
  | .hbm, ⟨66, _⟩ => ⟨S512x40, .f32⟩
  | .hbm, ⟨67, _⟩ => ⟨S64x40, .f32⟩
  | .hbm, ⟨68, _⟩ => ⟨S1x40, .f32⟩
  | .hbm, ⟨69, _⟩ => ⟨S64x40, .f32⟩
  | .hbm, ⟨70, _⟩ => ⟨S64x40, .f32⟩
  | _, _ => ⟨S64x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  reducesTo_S64x100000x3_S64x3_d1 : S64x100000x3.ReducesTo [1] S64x3
  h_S_ : 0 < S_.numel
  bcast_S64x3_S64x1x3_0_2 : S64x3.BroadcastsInDim S64x1x3 (![0, 2] : Fin 2 → Fin S64x1x3.rank)
  bcast_S_S64x1x3 : S_.BroadcastsInDim S64x1x3 (![] : Fin 0 → Fin S64x1x3.rank)
  bcast_S64x1x3_S64x100000x3_0_1_2 : S64x1x3.BroadcastsInDim S64x100000x3 (![0, 1, 2] : Fin 3 → Fin S64x100000x3.rank)
  bcast_S_S64x100000x3 : S_.BroadcastsInDim S64x100000x3 (![] : Fin 0 → Fin S64x100000x3.rank)
  slices_S64x100000x3_S64x100000x1_0_0_0 : S64x100000x3.Slices ![0, 0, 0] S64x100000x1
  shapeCasts_S64x100000x1_S64x100000 : S64x100000x1.ShapeCasts S64x100000
  bcast_S_S64x100000 : S_.BroadcastsInDim S64x100000 (![] : Fin 0 → Fin S64x100000.rank)
  slices_S64x100000x3_S64x100000x1_0_0_1 : S64x100000x3.Slices ![0, 0, 1] S64x100000x1
  slices_S64x100000x3_S64x100000x1_0_0_2 : S64x100000x3.Slices ![0, 0, 2] S64x100000x1
  bcast_S_S64 : S_.BroadcastsInDim S64 (![] : Fin 0 → Fin S64.rank)
  bcast_S64_S64x1_0 : S64.BroadcastsInDim S64x1 (![0] : Fin 1 → Fin S64x1.rank)
  bcast_S64x1_S64x100000_0_1 : S64x1.BroadcastsInDim S64x100000 (![0, 1] : Fin 2 → Fin S64x100000.rank)
  bcast_S_S6400000 : S_.BroadcastsInDim S6400000 (![] : Fin 0 → Fin S6400000.rank)
  shapeCasts_S64x100000_S6400000 : S64x100000.ShapeCasts S6400000
  bcast_S_S32768 : S_.BroadcastsInDim S32768 (![] : Fin 0 → Fin S32768.rank)
  bcast_S6400000_S6400000x1_0 : S6400000.BroadcastsInDim S6400000x1 (![0] : Fin 1 → Fin S6400000x1.rank)
  shapeCasts_S32768_S64x512 : S32768.ShapeCasts S64x512
  bcast_S_S64x512 : S_.BroadcastsInDim S64x512 (![] : Fin 0 → Fin S64x512.rank)
  transposes_S40x512_S512x40_1_0 : S40x512.Transposes [1, 0] S512x40
  bcast_S40_S1x40_1 : S40.BroadcastsInDim S1x40 (![1] : Fin 1 → Fin S1x40.rank)
  bcast_S1x40_S64x40_0_1 : S1x40.BroadcastsInDim S64x40 (![0, 1] : Fin 2 → Fin S64x40.rank)
  scatter_S32768_S6400000x1_S6400000_n_0_0_1_wf : ScatterDims.WF S32768 S6400000x1 S6400000 [] [0] [0] 1
  dot_S64x512_S512x40_S64x40_1_0_0_1_n_n_wf : DotDims.WF S64x512 S512x40 S64x40 [1] [0] [0] [1] [] []

variable [Facts₀]

def scatter_S32768_S6400000x1_S6400000_n_0_0_1 : ScatterDims S32768 S6400000x1 S6400000 where
  updateWindowDims := []
  insertedWindowDims := [0]
  scatterDimsToOperandDims := [0]
  indexVectorDim := 1
  wf := scatter_S32768_S6400000x1_S6400000_n_0_0_1_wf
def dot_S64x512_S512x40_S64x40_1_0_0_1_n_n : DotDims S64x512 S512x40 S64x40 where
  lhsContracting := [1]
  rhsContracting := [0]
  lhsNonContracting := [0]
  rhsNonContracting := [1]
  lhsBatch := []
  rhsBatch := []
  wf := dot_S64x512_S512x40_S64x40_1_0_0_1_n_n_wf

class Facts : Prop extends Facts₀ where

variable [Facts]
-- ==== Proof.KernelRun.lean ====
/-
  The idealized kernel's run with its result named.

  @main is four segments: the transposition of the points, the min/max pass, the histogram pass, and the host
  tail (reshape, division by the point count, the linear layer). The generated frame certificate carries the
  buffer contents through every segment boundary as a fold from the launch memory; its conclusion keeps only the
  argument arrays. Here the same launch is read once more, keeping in addition the result buffer: after every weakly
  fair execution it holds what the fold leaves there.
-/
import proofs.«115160_j65807488909790_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel's @main terminates without a fault, with the result buffer
    at what the fold of the four segments leaves in it and the argument arrays as launched. -/
theorem run_result : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.RunValue

end
-- ==== Proof.KernelArrays.lean ====
/-
  What the two passes leave in their result arrays, as whole-array functions of what they find.

  Both passes walk the 64 batches, one grid point per batch. At batch b the first pass reads row b of the
  transposed points (3 × 100000) and writes the row's per-coordinate minimum and maximum as row b of two 64 × 3 × 1
  arrays; the second reads the same row with row b of those two arrays, runs eight trips over consecutive chunks of
  12500 points, each adding the chunk's 64 × 8 tally to a carried accumulator that starts at zero, and writes the
  accumulator, laid out as 512 consecutive entries, as row b of a 64 × 1 × 512 array. Every point writes exactly its
  own row, the rows tile each array, so after the 64 points each array is the row-by-row function stated here. The
  arithmetic inside a row (the minimum, the tally) stays folded in the body's named values; it is opened elsewhere.
-/
import proofs.«115160_j65807488909790_2_alg».proof.Proof.Gen.KernelIdeal.Frame
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]

theorem hz3 : (![0, 0, 0] : Fin 3 → Nat) = fun _ => 0 := funext fun a => by fin_cases a <;> rfl

/-! ## Rows -/

/-- Row b of the transposed points, as a 1 × 3 × 100000 block. -/
def rowOf (xt : S64x3x100000.Idx → Elt F .f32) (b : Fin 64) : Vec F S1x3x100000 .f32 := fun y => xt (ix3 b (y 1) (y 2))

/-- Row b of a 64 × 3 × 1 array, as a 1 × 3 × 1 block. -/
def colOf (a : S64x3x1.Idx → Elt F .f32) (b : Fin 64) : Vec F S1x3x1 .f32 := fun y => a (ix3 b (y 1) (y 2))

/-! ## The first pass: minima and maxima -/

/-- The array of minima: entry (b, d, 0) is the body's minimum of row b at coordinate d. -/
def MinArr (xt : S64x3x100000.Idx → Elt F .f32) : S64x3x1.Idx → Elt F .f32 := fun i => k0_pay2 (rowOf xt (i 0)) (ix3 0 (i 1) 0)

/-- The array of maxima. -/
def MaxArr (xt : S64x3x100000.Idx → Elt F .f32) : S64x3x1.Idx → Elt F .f32 := fun i => k0_pay3 (rowOf xt (i 0)) (ix3 0 (i 1) 0)

/-- At point t every window of the first pass sits at block (t, 0, 0). -/
theorem idx_facts0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

section Region0
variable (V : (c : Dev nD) → (b : Ref sig .tc) → Buf (Elt F) ((c : Thread nD τ).loc b))

theorem cut0_1_apply (t : Fin cfg0.N) (X : Vec F S1x3x1 .f32) (j : ((win0 1).xblock (grid0.coords t)).Idx) :
    (win0 1).cut (grid0.coords t) X j = X j := rfl
theorem read0_1_apply (t : Fin cfg0.N) (G : S64x3x1.Idx → Elt F .f32) (j : ((win0 1).xblock (grid0.coords t)).Idx) :
    View.read (Elt F) ((View.whole main_v1_0).slice ((win0 1).rect t)) G j = G (((cfg0.win 1).blk t).view.emb j) := rfl
theorem cut0_2_apply (t : Fin cfg0.N) (X : Vec F S1x3x1 .f32) (j : ((win0 2).xblock (grid0.coords t)).Idx) :
    (win0 2).cut (grid0.coords t) X j = X j := rfl
theorem read0_2_apply (t : Fin cfg0.N) (G : S64x3x1.Idx → Elt F .f32) (j : ((win0 2).xblock (grid0.coords t)).Idx) :
    View.read (Elt F) ((View.whole main_v1_1).slice ((win0 2).rect t)) G j = G (((cfg0.win 2).blk t).view.emb j) := rfl

/-- The block of points the first pass reads at point t is row t of the array, whichever output block names the row. -/
theorem iblk0_eq (c : Dev nD) (t : Fin cfg0.N) (b : Fin 64) (hb : b.val = t.val) :
    (iblk0 V c 0 t : Vec F S1x3x100000 .f32) = rowOf (V c main_v0) b := by
  obtain ⟨e0, e1, e2, -, -, -, -, -, -⟩ := idx_facts0 t
  funext y
  show V c main_v0 (((cfg0.win 0).blk t).view.emb y) = V c main_v0 (ix3 b (y 1) (y 2))
  congr 1
  funext a; apply Fin.ext
  match a with
  | ⟨0, _⟩ => show win0_0.index t (0 : Fin 3) * 1 + 1 * (y 0).val = b.val; have : (y 0).val < 1 := (y 0).isLt; omega
  | ⟨1, _⟩ => show win0_0.index t (1 : Fin 3) * 3 + 1 * (y 1).val = (y 1).val; omega
  | ⟨2, _⟩ => show win0_0.index t (2 : Fin 3) * 100000 + 1 * (y 2).val = (y 2).val; omega

/-- What point t writes back to the array of minima is row t of `MinArr`. -/
theorem flushed0_1_eq (c : Dev nD) (t : Fin cfg0.N) :
    (dat0 V c).flushed 1 t = ((cfg0.win 1).blk t).view.read (Elt F) (MinArr (V c main_v0)) := by
  show (cfg0.win 1).cut (grid0.coords t) ((dat0 V c).after 1 t) = _
  rw [after0_1]
  unfold out0_1
  rw [View.canon_unit_zero hz3]
  simp only [View.ld_unit_zero (S := S1x3x100000) hz3]
  obtain ⟨-, -, -, e3, e4, e5, -, -, -⟩ := idx_facts0 t
  funext j
  refine ((cut0_1_apply t _ j).trans ?_).trans (read0_1_apply t _ j).symm
  unfold MinArr
  have hj0 : (j 0).val = 0 := by have : (j 0).val < 1 := (j 0).isLt; omega
  have hj2 : (j 2).val = 0 := by have : (j 2).val < 1 := (j 2).isLt; omega
  have hjj : j = ix3 0 ((((cfg0.win 1).blk t).view.emb j) 1) 0 := by
    funext a; apply Fin.ext
    match a with
    | ⟨0, _⟩ => exact hj0
    | ⟨1, _⟩ => show (j 1).val = win0_1.index t (1 : Fin 3) * 3 + 1 * (j 1).val; omega
    | ⟨2, _⟩ => exact hj2
  rw [iblk0_eq V c t ((((cfg0.win 1).blk t).view.emb j) 0) (by
    show win0_1.index t (0 : Fin 3) * 1 + 1 * (j 0).val = t.val; omega)]
  exact congrArg _ hjj

/-- What point t writes back to the array of maxima is row t of `MaxArr`. -/
theorem flushed0_2_eq (c : Dev nD) (t : Fin cfg0.N) :
    (dat0 V c).flushed 2 t = ((cfg0.win 2).blk t).view.read (Elt F) (MaxArr (V c main_v0)) := by
  show (cfg0.win 2).cut (grid0.coords t) ((dat0 V c).after 2 t) = _
  rw [after0_2]
  unfold out0_2
  rw [View.canon_unit_zero hz3]
  simp only [View.ld_unit_zero (S := S1x3x100000) hz3]
  obtain ⟨-, -, -, -, -, -, e3, e4, e5⟩ := idx_facts0 t
  funext j
  refine ((cut0_2_apply t _ j).trans ?_).trans (read0_2_apply t _ j).symm
  unfold MaxArr
  have hj0 : (j 0).val = 0 := by have : (j 0).val < 1 := (j 0).isLt; omega
  have hj2 : (j 2).val = 0 := by have : (j 2).val < 1 := (j 2).isLt; omega
  have hjj : j = ix3 0 ((((cfg0.win 2).blk t).view.emb j) 1) 0 := by
    funext a; apply Fin.ext
    match a with
    | ⟨0, _⟩ => exact hj0
    | ⟨1, _⟩ => show (j 1).val = win0_2.index t (1 : Fin 3) * 3 + 1 * (j 1).val; omega
    | ⟨2, _⟩ => exact hj2
  rw [iblk0_eq V c t ((((cfg0.win 2).blk t).view.emb j) 0) (by
    show win0_2.index t (0 : Fin 3) * 1 + 1 * (j 0).val = t.val; omega)]
  exact congrArg _ hjj

/-- An index of the array of minima is in point t's block iff each coordinate is in the block's range. -/
theorem mem_blk0_1 (t : Fin cfg0.N) (i : S64x3x1.Idx) :
    i ∈ ((cfg0.win 1).blk t).view.set ↔ ∀ a : Fin 3, win0_1.index t a * S1x3x1.size a ≤ (i a).val ∧ (i a).val < win0_1.index t a * S1x3x1.size a + S1x3x1.size a := by
  show i ∈ ((View.whole main_v1_0).slice (win0_1.rect t)).set ↔ _
  rw [View.set_slice_whole, Rect.mem_set_unit]
  exact Iff.rfl

theorem mem_blk0_2 (t : Fin cfg0.N) (i : S64x3x1.Idx) :
    i ∈ ((cfg0.win 2).blk t).view.set ↔ ∀ a : Fin 3, win0_2.index t a * S1x3x1.size a ≤ (i a).val ∧ (i a).val < win0_2.index t a * S1x3x1.size a + S1x3x1.size a := by
  show i ∈ ((View.whole main_v1_1).slice (win0_2.rect t)).set ↔ _
  rw [View.set_slice_whole, Rect.mem_set_unit]
  exact Iff.rfl

/-- Row (i 0) is point (i 0)'s block: the 64 blocks cover the array. -/
theorem cover0_1 (i : S64x3x1.Idx) : ∃ t : Fin cfg0.N, (cfg0.win 1).flush t = true ∧ i ∈ ((cfg0.win 1).blk t).view.set := by
  have hN : grid0.N = 64 := N_0
  have h0 : (i 0).val < 64 := (i 0).isLt
  have h1 : (i 1).val < 3 := (i 1).isLt
  have h2 : (i 2).val < 1 := (i 2).isLt
  refine ⟨⟨(i 0).val, by show (i 0).val < grid0.N; omega⟩, flush0_1 _, ?_⟩
  rw [mem_blk0_1]
  obtain ⟨-, -, -, e3, e4, e5, -, -, -⟩ := idx_facts0 ⟨(i 0).val, by show (i 0).val < grid0.N; omega⟩
  intro a
  match a with
  | ⟨0, _⟩ => show win0_1.index _ (0 : Fin 3) * 1 ≤ (i 0).val ∧ (i 0).val < win0_1.index _ (0 : Fin 3) * 1 + 1; simp only [e3]; omega
  | ⟨1, _⟩ => show win0_1.index _ (1 : Fin 3) * 3 ≤ (i 1).val ∧ (i 1).val < win0_1.index _ (1 : Fin 3) * 3 + 3; simp only [e4]; omega
  | ⟨2, _⟩ => show win0_1.index _ (2 : Fin 3) * 1 ≤ (i 2).val ∧ (i 2).val < win0_1.index _ (2 : Fin 3) * 1 + 1; simp only [e5]; omega

theorem cover0_2 (i : S64x3x1.Idx) : ∃ t : Fin cfg0.N, (cfg0.win 2).flush t = true ∧ i ∈ ((cfg0.win 2).blk t).view.set := by
  have hN : grid0.N = 64 := N_0
  have h0 : (i 0).val < 64 := (i 0).isLt
  have h1 : (i 1).val < 3 := (i 1).isLt
  have h2 : (i 2).val < 1 := (i 2).isLt
  refine ⟨⟨(i 0).val, by show (i 0).val < grid0.N; omega⟩, flush0_2 _, ?_⟩
  rw [mem_blk0_2]
  obtain ⟨-, -, -, -, -, -, e3, e4, e5⟩ := idx_facts0 ⟨(i 0).val, by show (i 0).val < grid0.N; omega⟩
  intro a
  match a with
  | ⟨0, _⟩ => show win0_2.index _ (0 : Fin 3) * 1 ≤ (i 0).val ∧ (i 0).val < win0_2.index _ (0 : Fin 3) * 1 + 1; simp only [e3]; omega
  | ⟨1, _⟩ => show win0_2.index _ (1 : Fin 3) * 3 ≤ (i 1).val ∧ (i 1).val < win0_2.index _ (1 : Fin 3) * 3 + 3; simp only [e4]; omega
  | ⟨2, _⟩ => show win0_2.index _ (2 : Fin 3) * 1 ≤ (i 2).val ∧ (i 2).val < win0_2.index _ (2 : Fin 3) * 1 + 1; simp only [e5]; omega

/-- After the first pass the array of minima is `MinArr` of the transposed points, -/
theorem final0_1 (c : Dev nD) : (dat0 V c).arrAt 1 cfg0.N = MinArr (V c main_v0) :=
  (dat0 V c).arrAt_eq_of_cover 1 (MinArr (V c main_v0)) (fun t _ => flushed0_1_eq V c t) cover0_1

/-- and the array of maxima is `MaxArr`. -/
theorem final0_2 (c : Dev nD) : (dat0 V c).arrAt 2 cfg0.N = MaxArr (V c main_v0) :=
  (dat0 V c).arrAt_eq_of_cover 2 (MaxArr (V c main_v0)) (fun t _ => flushed0_2_eq V c t) cover0_2

end Region0

/-! ## The second pass: eight trips over a row's chunks -/

/-- Chunk k of a row of points: 12500 consecutive points, all three coordinates. -/
def chunkOf (x0 : Vec F S1x3x100000 .f32) (k : Fin k1_t1_loop.trips) : Vec F S1x3x12500 .f32 :=
  View.ld x0 (Rect.unit (s := S1x3x100000) (k1_off1 k) S1x3x12500.size (Gen.k1_off1_inb k))

/-- The accumulator before trip k: zero, then one trip's tally added per chunk. -/
def accum (x0 : Vec F S1x3x100000 .f32) (x1 x2 : Vec F S1x3x1 .f32) : ℕ → FVec F S64x8 .f32
  | 0 => k1_pay1
  | k + 1 => if h : k < k1_t1_loop.trips then k1_pay2 x1 x2 (accum x0 x1 x2 k) (chunkOf x0 ⟨k, h⟩) else accum x0 x1 x2 k

/-- The value the loop carries before trip k, as the run names it, is that accumulator: one trip yields the body's
    named value of the carried accumulator and the chunk it loads. -/
theorem st_eq (𝒱 : Variants) (c : Dev nD) (bd : Option 𝒱.V) (i : grid1.Coords) (arg1 : Memref sig .tc .vmem S1x3x100000 .f32) (harg1 : arg1.IsWhole) (arg2 : Memref sig .tc .vmem S1x3x1 .f32) (harg2 : arg2.IsWhole) (arg3 : Memref sig .tc .vmem S1x3x1 .f32) (harg3 : arg3.IsWhole) (arg4 : Memref sig .tc .vmem S1x1x512 .f32) (harg4 : arg4.IsWhole)
    (x0 : Vec F S1x3x100000 .f32) (x1 x2 : Vec F S1x3x1 .f32) (k : ℕ) :
    st_k1_t1 (F := F) 𝒱 c bd i arg1 harg1 arg2 harg2 arg3 harg3 arg4 harg4 x1 x2 (harg1.unread x0) k1_pay1 k = accum x0 x1 x2 k := by
  induction k with
  | zero => rfl
  | succ k ih =>
    rw [st_k1_t1.eq_2, accum, ih]
    unfold st_k1_t1Step
    by_cases h : k < k1_t1_loop.trips
    · rw [dif_pos h, dif_pos h]
      unfold tripR_k1_t1 trip_k1_t1
      dsimp only
      unfold chunkOf
      simp only [View.readAt_eq_ld, harg1.read_unread]
    · rw [dif_neg h, dif_neg h]

/-- What the body leaves in the output block: the accumulator after the last trip, laid out as 512 entries. -/
theorem out1_eq (c : Dev nD) (i : grid1.Coords) (arg1 : Memref sig .tc .vmem S1x3x100000 .f32) (harg1 : arg1.IsWhole) (arg2 : Memref sig .tc .vmem S1x3x1 .f32) (harg2 : arg2.IsWhole) (arg3 : Memref sig .tc .vmem S1x3x1 .f32) (harg3 : arg3.IsWhole) (arg4 : Memref sig .tc .vmem S1x1x512 .f32) (harg4 : arg4.IsWhole)
    (x0 : Vec F S1x3x100000 .f32) (x1 x2 : Vec F S1x3x1 .f32) :
    out1_A_3 (F := F) c i arg1 harg1 arg2 harg2 arg3 harg3 arg4 harg4 x0 x1 x2 = k1_pay3 (accum x0 x1 x2 k1_t1_loop.trips) := by
  unfold out1_A_3
  rw [View.read_writes_eq_canon _ _ _ (cover1_A_3 c i arg1 harg1 arg2 harg2 arg3 harg3 arg4 harg4 x0 x1 x2)]
  unfold kernelRun1_A
  dsimp only
  rw [View.canon_unit_zero hz3]
  simp only [View.readAt_eq_ld, harg2.read_unread, harg3.read_unread, View.ld_unit_zero (S := S1x3x1) hz3]
  rw [st_eq]

/-- The histogram array: row b is the accumulator after eight trips over row b of the points, with row b of the minima and
    maxima, laid out as 512 entries. -/
def HistArr (xt : S64x3x100000.Idx → Elt F .f32) (mn mx : S64x3x1.Idx → Elt F .f32) : S64x1x512.Idx → Elt F .f32 := fun i =>
  k1_pay3 (accum (rowOf xt (i 0)) (colOf mn (i 0)) (colOf mx (i 0)) k1_t1_loop.trips) (ix3 0 0 (i 2))

/-- At point t every window of the second pass sits at block (t, 0, 0). -/
theorem idx_facts1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

section Region1
variable (V : (c : Dev nD) → (b : Ref sig .tc) → Buf (Elt F) ((c : Thread nD τ).loc b))

theorem cut1_3_apply (t : Fin cfg1.N) (X : Vec F S1x1x512 .f32) (j : ((win1 3).xblock (grid1.coords t)).Idx) :
    (win1 3).cut (grid1.coords t) X j = X j := rfl
theorem read1_3_apply (t : Fin cfg1.N) (G : S64x1x512.Idx → Elt F .f32) (j : ((win1 3).xblock (grid1.coords t)).Idx) :
    View.read (Elt F) ((View.whole main_v2).slice ((win1 3).rect t)) G j = G (((cfg1.win 3).blk t).view.emb j) := rfl

theorem iblk1_0_eq (c : Dev nD) (t : Fin cfg1.N) (b : Fin 64) (hb : b.val = t.val) :
    (iblk1 V c 0 t : Vec F S1x3x100000 .f32) = rowOf (V c main_v0) b := by
  obtain ⟨e0, e1, e2, -⟩ := idx_facts1 t
  funext y
  show V c main_v0 (((cfg1.win 0).blk t).view.emb y) = V c main_v0 (ix3 b (y 1) (y 2))
  congr 1
  funext a; apply Fin.ext
  match a with
  | ⟨0, _⟩ => show win1_0.index t (0 : Fin 3) * 1 + 1 * (y 0).val = b.val; have : (y 0).val < 1 := (y 0).isLt; omega
  | ⟨1, _⟩ => show win1_0.index t (1 : Fin 3) * 3 + 1 * (y 1).val = (y 1).val; omega
  | ⟨2, _⟩ => show win1_0.index t (2 : Fin 3) * 100000 + 1 * (y 2).val = (y 2).val; omega

theorem iblk1_1_eq (c : Dev nD) (t : Fin cfg1.N) (b : Fin 64) (hb : b.val = t.val) :
    (iblk1 V c 1 t : Vec F S1x3x1 .f32) = colOf (V c main_v1_0) b := by
  obtain ⟨-, -, -, e0, e1, e2, -⟩ := idx_facts1 t
  funext y
  show V c main_v1_0 (((cfg1.win 1).blk t).view.emb y) = V c main_v1_0 (ix3 b (y 1) (y 2))
  congr 1
  funext a; apply Fin.ext
  match a with
  | ⟨0, _⟩ => show win1_1.index t (0 : Fin 3) * 1 + 1 * (y 0).val = b.val; have : (y 0).val < 1 := (y 0).isLt; omega
  | ⟨1, _⟩ => show win1_1.index t (1 : Fin 3) * 3 + 1 * (y 1).val = (y 1).val; omega
  | ⟨2, _⟩ => show win1_1.index t (2 : Fin 3) * 1 + 1 * (y 2).val = (y 2).val; omega

theorem iblk1_2_eq (c : Dev nD) (t : Fin cfg1.N) (b : Fin 64) (hb : b.val = t.val) :
    (iblk1 V c 2 t : Vec F S1x3x1 .f32) = colOf (V c main_v1_1) b := by
  obtain ⟨-, -, -, -, -, -, e0, e1, e2, -⟩ := idx_facts1 t
  funext y
  show V c main_v1_1 (((cfg1.win 2).blk t).view.emb y) = V c main_v1_1 (ix3 b (y 1) (y 2))
  congr 1
  funext a; apply Fin.ext
  match a with
  | ⟨0, _⟩ => show win1_2.index t (0 : Fin 3) * 1 + 1 * (y 0).val = b.val; have : (y 0).val < 1 := (y 0).isLt; omega
  | ⟨1, _⟩ => show win1_2.index t (1 : Fin 3) * 3 + 1 * (y 1).val = (y 1).val; omega
  | ⟨2, _⟩ => show win1_2.index t (2 : Fin 3) * 1 + 1 * (y 2).val = (y 2).val; omega

/-- What point t writes back to the histogram array is row t of `HistArr`. -/
theorem flushed1_3_eq (c : Dev nD) (t : Fin cfg1.N) :
    (dat1 V c).flushed 3 t = ((cfg1.win 3).blk t).view.read (Elt F) (HistArr (V c main_v0) (V c main_v1_0) (V c main_v1_1)) := by
  show (cfg1.win 3).cut (grid1.coords t) ((dat1 V c).after 3 t) = _
  rw [after1_3]
  unfold outsAt1
  rw [out1_eq]
  obtain ⟨-, -, -, -, -, -, -, -, -, e0, e1, e2⟩ := idx_facts1 t
  funext j
  refine ((cut1_3_apply t _ j).trans ?_).trans (read1_3_apply t _ j).symm
  unfold HistArr
  have hj0 : (j 0).val = 0 := by have : (j 0).val < 1 := (j 0).isLt; omega
  have hj1 : (j 1).val = 0 := by have : (j 1).val < 1 := (j 1).isLt; omega
  have hb : ((((cfg1.win 3).blk t).view.emb j) 0).val = t.val := by
    show win1_3.index t (0 : Fin 3) * 1 + 1 * (j 0).val = t.val; omega
  have hjj : j = ix3 0 0 ((((cfg1.win 3).blk t).view.emb j) 2) := by
    funext a; apply Fin.ext
    match a with
    | ⟨0, _⟩ => exact hj0
    | ⟨1, _⟩ => exact hj1
    | ⟨2, _⟩ => show (j 2).val = win1_3.index t (2 : Fin 3) * 512 + 1 * (j 2).val; omega
  rw [iblk1_0_eq V c t _ hb, iblk1_1_eq V c t _ hb, iblk1_2_eq V c t _ hb]
  exact congrArg _ hjj

theorem mem_blk1_3 (t : Fin cfg1.N) (i : S64x1x512.Idx) :
    i ∈ ((cfg1.win 3).blk t).view.set ↔ ∀ a : Fin 3, win1_3.index t a * S1x1x512.size a ≤ (i a).val ∧ (i a).val < win1_3.index t a * S1x1x512.size a + S1x1x512.size a := by
  show i ∈ ((View.whole main_v2).slice (win1_3.rect t)).set ↔ _
  rw [View.set_slice_whole, Rect.mem_set_unit]
  exact Iff.rfl

theorem cover1_3 (i : S64x1x512.Idx) : ∃ t : Fin cfg1.N, (cfg1.win 3).flush t = true ∧ i ∈ ((cfg1.win 3).blk t).view.set := by
  have hN : grid1.N = 64 := N_1
  have h0 : (i 0).val < 64 := (i 0).isLt
  have h1 : (i 1).val < 1 := (i 1).isLt
  have h2 : (i 2).val < 512 := (i 2).isLt
  refine ⟨⟨(i 0).val, by show (i 0).val < grid1.N; omega⟩, flush1_3 _, ?_⟩
  rw [mem_blk1_3]
  obtain ⟨-, -, -, -, -, -, -, -, -, e3, e4, e5⟩ := idx_facts1 ⟨(i 0).val, by show (i 0).val < grid1.N; omega⟩
  intro a
  match a with
  | ⟨0, _⟩ => show win1_3.index _ (0 : Fin 3) * 1 ≤ (i 0).val ∧ (i 0).val < win1_3.index _ (0 : Fin 3) * 1 + 1; simp only [e3]; omega
  | ⟨1, _⟩ => show win1_3.index _ (1 : Fin 3) * 1 ≤ (i 1).val ∧ (i 1).val < win1_3.index _ (1 : Fin 3) * 1 + 1; simp only [e4]; omega
  | ⟨2, _⟩ => show win1_3.index _ (2 : Fin 3) * 512 ≤ (i 2).val ∧ (i 2).val < win1_3.index _ (2 : Fin 3) * 512 + 512; simp only [e5]; omega

/-- After the second pass the histogram array is `HistArr` of the three arrays the pass reads. -/
theorem final1_3 (c : Dev nD) : (dat1 V c).arrAt 3 cfg1.N = HistArr (V c main_v0) (V c main_v1_0) (V c main_v1_1) :=
  (dat1 V c).arrAt_eq_of_cover 3 _ (fun t _ => flushed1_3_eq V c t) cover1_3

end Region1

end Cert.KernelIdeal.Arrays

end
-- ==== Proof.KernelValue.lean ====
/-
  The idealized kernel's result as one function of its three arguments.

  The result buffer after the run is what the host tail computes from the histogram array: the array re-laid from
  64 × 1 × 512 to 64 × 512, divided entry by entry by the point count 100000, multiplied as a matrix with the transposed
  weights, the bias added to every row. The histogram array is what the second pass leaves, a function of the
  transposed points and of the first pass's minima and maxima, themselves functions of the transposed points; no
  segment writes an argument array. Composing the four segments gives the result as `tail` of the histogram of the
  transposed argument.
-/
import proofs.«115160_j65807488909790_2_alg».proof.Proof.KernelRun
import proofs.«115160_j65807488909790_2_alg».proof.Proof.KernelArrays
import Idealize.ShloMosaic.Lib.StableHlo.Run

set_option maxRecDepth 16384

noncomputable section

namespace Cert.KernelIdeal.Result

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Arrays

variable {F : FTy → Type} [FloatOps F]

/-- The host tail: a 64 × 1 × 512 array of counts re-laid as 64 × 512, divided by 100000, times the transposed
    40 × 512 weights, plus the bias on every row. -/
def tail (cnt : (⟨S64x1x512, .f32⟩ : BufTy).Contents (Elt F)) (w : (⟨S40x512, .f32⟩ : BufTy).Contents (Elt F))
    (bb : (⟨S40, .f32⟩ : BufTy).Contents (Elt F)) : (⟨S64x40, .f32⟩ : BufTy).Contents (Elt F) :=
  addf (Host.dotGeneral dot_S64x512_S512x40_S64x40_1_0_0_1_n_n none
      (Host.divf (shapeCast S64x512 cnt Gen.shapeCasts_S64x1x512_S64x512) (broadcastInDim S64x512 ![] Gen.bcast_S_S64x512 (constant S_ .f32 0x47C35000#32)))
      (transpose S512x40 [1, 0] w Gen.transposes_S40x512_S512x40_1_0))
    (broadcastInDim S64x40 ![0, 1] Gen.bcast_S1x40_S64x40_0_1 (broadcastInDim S1x40 ![1] Gen.bcast_S40_S1x40_1 bb))

/-- The points with the point axis last: what both passes read. -/
def pointsT (x : (⟨S64x100000x3, .f32⟩ : BufTy).Contents (Elt F)) : (⟨S64x3x100000, .f32⟩ : BufTy).Contents (Elt F) :=
  transpose S64x3x100000 [0, 2, 1] x Gen.transposes_S64x100000x3_S64x3x100000_0_2_1

variable (m : (ℓ : Loc nD τ sig) → Buf (Elt F) ℓ) (ρ : Dev nD → PrngReg)

/-- The result buffer after the tail, from the buffers the tail reads. -/
theorem W4_v10 (c : Dev nD) : W4 m ρ c (Proc.devRef .tc main_v10)
    = tail (F := F) (W3 m ρ c (Proc.devRef .tc main_v2)) (W3 m ρ c (Proc.devRef .tc main_arg1)) (W3 m ρ c (Proc.devRef .tc main_arg2)) := by
  show StableHlo.after hostOps2 (W3 m ρ c) (Proc.devRef .tc main_v10) = _
  after_results
  rfl

/-- The first segment writes the transposed points and leaves the arguments. -/
theorem W1_v0 (c : Dev nD) : W1 m ρ c (Proc.devRef .tc main_v0) = pointsT (m ((c : Thread nD τ).loc main_arg0)) := by
  show StableHlo.after hostOps0 (W0 m ρ c) (Proc.devRef .tc main_v0) = _
  after_results
  rfl

theorem W1_arg1 (c : Dev nD) : W1 m ρ c (Proc.devRef .tc main_arg1) = m ((c : Thread nD τ).loc main_arg1) := by
  show StableHlo.after hostOps0 (W0 m ρ c) (Proc.devRef .tc main_arg1) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

/-- The first pass leaves its input array as it found it, -/
theorem V2_v0 (c : Dev nD) : V2 m ρ c main_v0 = pointsT (m ((c : Thread nD τ).loc main_arg0)) :=
  ((W2_arr m ρ c 0).trans (((dat0 (V1 m ρ) c).arrAt_in 0 rfl _).trans (A_eq0 (V1 m ρ) c 0))).trans (W1_v0 m ρ c)

/-- and its two outputs at the minima and the maxima of the transposed points. -/
theorem V2_v1_0 (c : Dev nD) : V2 m ρ c main_v1_0 = MinArr (pointsT (m ((c : Thread nD τ).loc main_arg0))) :=
  ((W2_arr m ρ c 1).trans (final0_1 (V1 m ρ) c)).trans (congrArg MinArr (W1_v0 m ρ c))

theorem V2_v1_1 (c : Dev nD) : V2 m ρ c main_v1_1 = MaxArr (pointsT (m ((c : Thread nD τ).loc main_arg0))) :=
  ((W2_arr m ρ c 2).trans (final0_2 (V1 m ρ) c)).trans (congrArg MaxArr (W1_v0 m ρ c))

/-- The second pass leaves the histogram of the transposed points over their minima and maxima. -/
theorem W3_v2 (c : Dev nD) : W3 m ρ c (Proc.devRef .tc main_v2)
    = HistArr (pointsT (m ((c : Thread nD τ).loc main_arg0))) (MinArr (pointsT (m ((c : Thread nD τ).loc main_arg0))))
        (MaxArr (pointsT (m ((c : Thread nD τ).loc main_arg0)))) := by
  refine ((W3_arr m ρ c 3).trans (final1_3 (V2 m ρ) c)).trans ?_
  rw [V2_v0, V2_v1_0, V2_v1_1]

/-- Neither pass touches the weights or the bias. -/
theorem W3_arg1 (c : Dev nD) : W3 m ρ c (Proc.devRef .tc main_arg1) = m ((c : Thread nD τ).loc main_arg1) :=
  (W3_of_ne m ρ c main_arg1 (by decide)).trans ((W2_of_ne m ρ c main_arg1 (by decide)).trans (W1_arg1 m ρ c))

theorem W3_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_arg2 m ρ c))

/-- The kernel's result as a function of its arguments. -/
def result (x : (⟨S64x100000x3, .f32⟩ : BufTy).Contents (Elt F)) (w : (⟨S40x512, .f32⟩ : BufTy).Contents (Elt F))
    (bb : (⟨S40, .f32⟩ : BufTy).Contents (Elt F)) : (⟨S64x40, .f32⟩ : BufTy).Contents (Elt F) :=
  tail (HistArr (pointsT x) (MinArr (pointsT x)) (MaxArr (pointsT x))) w bb

theorem W4_result (c : Dev nD) : W4 m ρ c (Proc.devRef .tc main_v10)
    = result (m ((c : Thread nD τ).loc main_arg0)) (m ((c : Thread nD τ).loc main_arg1)) (m ((c : Thread nD τ).loc main_arg2)) := by
  rw [W4_v10, W3_v2, W3_arg1, W3_arg2]
  rfl

/-- THE RUN: every weakly fair execution ends with the result buffer at `result` of the arguments, the arguments unchanged. -/
theorem run : θ_run defs (onTc (τ := τ) (main (F := F))) ⟨m, fun _ => 0, ρ⟩ (fun r => ∀ c : Dev nD,
      r.2.mem ((c.tc : Thread nD τ).loc main_v10)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W4_result m ρ c), (h c).2⟩) (Cert.KernelIdeal.RunValue.run_result m ρ)

end Cert.KernelIdeal.Result

end
-- ==== Proof.Spec.lean ====
/-
  The function both programs compute, written once over the extended reals.

  For a batch b the points x[b, n, ·] (n < 100000) are binned on an 8 × 8 × 8 grid stretched over the batch's
  bounding box: per coordinate d the box is [lo b d, hi b d] (the minimum and the maximum over the points), a
  coordinate's cell is ⌊(v − lo) · 8 / (hi − lo)⌋ converted to a 32-bit word and clamped to [0, 7] (the scale is 8
  where the box is degenerate), and a point's bin is (cell₀ · 8 + cell₁) · 8 + cell₂ < 512. The histogram counts,
  for each of the 512 bins, the points of the batch that fall in it. Nothing here needs a finite input: the
  conversion to a word is one fixed function of an extended real, and a clamped word is at most 7 whatever it was.
-/
import Idealize.ShloMosaic.PureOps
import Idealize.ShloMosaic.PureOps.Ideal
import Idealize.ShloMosaic.Lib.ValueIdx

noncomputable section

open scoped BigOperators

namespace Cert.Hist

open Idealize.ShloMosaic Idealize.ShloMosaic.ValueIdx

/-- The scale of one coordinate: 8 over the box's extent, or 8 over 1 where the extent is not positive. -/
def scaleOf (lo hi : EReal) : EReal :=
  Ideal.div (Ideal.ofBits .f32 0x41000000#32)
    (Scalar.select (Ideal.cmp .ogt (hi - lo) (Ideal.ofBits .f32 0x00000000#32)) (hi - lo) (Ideal.ofBits .f32 0x3F800000#32))

/-- A word clamped to [0, 7], read signed: first raised to 0, then lowered to 7. -/
def clampW (y : BitVec 32) : BitVec 32 := IntOp.minsi 7#32 (IntOp.maxsi 0#32 y)

/-- One coordinate's cell as a word. -/
def cellW (v lo hi : EReal) : BitVec 32 :=
  clampW (Ideal.fptosi 32 (Ideal.liftRound Int.floor ((v - lo) * scaleOf lo hi)))

/-- A clamped word is a natural number at most 7. -/
theorem clampW_toNat_le (y : BitVec 32) : (clampW y).toNat ≤ 7 := by
  unfold clampW IntOp.minsi IntOp.maxsi
  have hy := y.isLt
  by_cases h1 : y.slt 0#32 = true
  · rw [if_pos h1]; decide
  · rw [if_neg h1]
    by_cases h2 : (7#32 : BitVec 32).slt y = true
    · rw [if_pos h2]; decide
    · rw [if_neg h2]
      simp only [BitVec.slt, decide_eq_true_eq, not_lt, BitVec.toInt_eq_toNat_cond] at h1 h2
      simp at h1 h2
      split_ifs at h1 h2 <;> omega

/-- One coordinate's cell as a natural number. -/
def cellN (v lo hi : EReal) : ℕ := (cellW v lo hi).toNat

theorem cellN_le (v lo hi : EReal) : cellN v lo hi ≤ 7 := clampW_toNat_le _

theorem cellW_eq (v lo hi : EReal) : cellW v lo hi = BitVec.ofNat 32 (cellN v lo hi) := (BitVec.ofNat_toNat _ _).symm ▸ (by simp [cellN])

/-- A point's bin from its three coordinates and the box. -/
def binN (v lo hi : Fin 3 → EReal) : ℕ :=
  (cellN (v 0) (lo 0) (hi 0) * 8 + cellN (v 1) (lo 1) (hi 1)) * 8 + cellN (v 2) (lo 2) (hi 2)

theorem binN_lt (v lo hi : Fin 3 → EReal) : binN v lo hi < 512 := by
  have h0 := cellN_le (v 0) (lo 0) (hi 0)
  have h1 := cellN_le (v 1) (lo 1) (hi 1)
  have h2 := cellN_le (v 2) (lo 2) (hi 2)
  unfold binN; omega

/-- The input's shape: 64 batches of 100000 points of 3 coordinates. -/
abbrev SX : Shape := ⟨3, ![64, 100000, 3]⟩

/-- The least value of coordinate d over batch b's points (from +∞). -/
def lo (x : SX.Idx → EReal) (b : Fin 64) (d : Fin 3) : EReal :=
  (Finset.univ : Finset (Fin 100000)).fold min (Ideal.ofBits .f32 0x7F800000#32) (fun n => x (ix3 b n d))

/-- The greatest value of coordinate d over batch b's points (from −∞). -/
def hi (x : SX.Idx → EReal) (b : Fin 64) (d : Fin 3) : EReal :=
  (Finset.univ : Finset (Fin 100000)).fold max (Ideal.ofBits .f32 0xFF800000#32) (fun n => x (ix3 b n d))

/-- The bin of point n of batch b. -/
def binOf (x : SX.Idx → EReal) (b : Fin 64) (n : Fin 100000) : ℕ :=
  binN (fun d => x (ix3 b n d)) (lo x b) (hi x b)

/-- The histogram: how many points of batch b fall in bin q. -/
def counts (x : SX.Idx → EReal) : (⟨2, ![64, 512]⟩ : Shape).Idx → EReal :=
  fun i => ∑ n : Fin 100000, if binOf x (i 0) n = (i 1).val then (1 : EReal) else 0

end Cert.Hist

end
-- ==== Proof.HistBlock.lean ====
/-
  The kernel's arithmetic, read at an index over the extended reals.

  The first kernel takes, per coordinate, the minimum and the maximum of a batch's 100000 points: each is the fold of
  min (from +∞) resp. max (from −∞) over the points. The second kernel walks the points in eight chunks of 12500; one trip
  computes every point's three clamped cells, builds the 64 × 12500 one-hot matrix of cell₀ · 8 + cell₁ and the
  8 × 12500 one-hot matrix of cell₂, and adds their product over the points to the carried 64 × 8 accumulator: entry
  (r, c) grows by the number of the chunk's points whose bin is r · 8 + c. The accumulator starts at zero and is laid
  out at the end as one row of 512 bins, bin r · 8 + c at position r · 8 + c; the eight chunks tile the 100000 points.
-/
import proofs.«115160_j65807488909790_2_alg».proof.Proof.Gen.KernelIdeal.Skeleton
import proofs.«115160_j65807488909790_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

open scoped BigOperators

namespace Cert.Hist.Kern

open Idealize.ShloMosaic Idealize.ShloMosaic.ValueIdx
open Cert.KernelIdeal Cert.KernelIdeal.Gen

theorem pay1_apply (i : S64x8.Idx) : k1_pay1 (F := Ideal) i = 0 := by
  show Ideal.ofBits .f32 0x00000000#32 = 0
  exact Ideal.ofBits_zero_f32

theorem pay3_apply (v13 : FVec Ideal S64x8 .f32) (r : Fin 64) (c : Fin 8) :
    k1_pay3 (F := Ideal) v13 (ix3 0 0 ⟨r.val * 8 + c.val, by omega⟩) = v13 (ix2 r c) := by
  unfold k1_pay3
  refine shapeCast_apply v13 shapeCasts_S64x8_S1x1x512 _ (ix2 r c) ?_
  rw [Shape.rowMajor_val_two, Shape.rowMajor_val_three]
  show r.val * 8 + c.val = (0 * 1 + 0) * 512 + (r.val * 8 + c.val)
  omega

/-- The eight chunks of 12500 tile the 100000 points. -/
def chunkEquiv : Fin 8 × Fin 12500 ≃ Fin 100000 where
  toFun p := ⟨p.1.val * 12500 + p.2.val, by have := p.1.isLt; have := p.2.isLt; omega⟩
  invFun n := (⟨n.val / 12500, by have := n.isLt; omega⟩, ⟨n.val % 12500, Nat.mod_lt _ (by norm_num)⟩)
  left_inv p := by
    have h1 := p.1.isLt; have h2 := p.2.isLt
    refine Prod.ext (Fin.ext ?_) (Fin.ext ?_)
    · show (p.1.val * 12500 + p.2.val) / 12500 = p.1.val
      omega
    · show (p.1.val * 12500 + p.2.val) % 12500 = p.2.val
      omega
  right_inv n := by
    refine Fin.ext ?_
    show n.val / 12500 * 12500 + n.val % 12500 = n.val
    omega

theorem sum_chunks (f : Fin 100000 → EReal) :
    ∑ k : Fin 8, ∑ n : Fin 12500, f ⟨k.val * 12500 + n.val, by omega⟩ = ∑ n : Fin 100000, f n := by
  rw [← Equiv.sum_comp chunkEquiv f, Fintype.sum_prod_type]
  rfl

theorem lift_eq (d : Fin 3) (n : Fin 100000) :
    Shape.Reduces.lift reduces_S1x3x100000_S1x3 (ix2 0 d) n = ix3 0 d n := by
  funext c
  refine Fin.ext ?_
  match c with
  | ⟨0, _⟩ => rfl
  | ⟨1, _⟩ => rfl
  | ⟨2, _⟩ => rfl

theorem pay_min_apply (v0 : Vec Ideal S1x3x100000 .f32) (d : Fin 3) :
    k0_pay2 (F := Ideal) v0 (ix3 0 d 0)
      = (Finset.univ : Finset (Fin 100000)).fold min (Ideal.ofBits .f32 0x7F800000#32) (fun n => v0 (ix3 0 d n)) := by
  unfold k0_pay2 k0_pay1
  simp only [shapeCast_self]
  refine (shapeCast_apply _ shapeCasts_S1x3_S1x3x1 _ (ix2 0 d) ?_).trans ?_
  · rw [Shape.rowMajor_val_two, Shape.rowMajor_val_three]
    show 0 * 3 + d.val = (0 * 3 + d.val) * 1 + 0
    omega
  · refine (multiReduction_minimumf_eq_fold (F := Ideal) v0 _ reduces_S1x3x100000_S1x3 _ _ (ix2 0 d)).trans ?_
    refine (Shape.Reduces.fold_filter_drop_single reduces_S1x3x100000_S1x3 _ _ v0 (ix2 0 d)).trans ?_
    show (Finset.univ : Finset (Fin 100000)).fold min (Ideal.ofBits .f32 0x7F800000#32) (v0 ∘ Shape.Reduces.lift reduces_S1x3x100000_S1x3 (ix2 0 d)) = _
    refine congrArg (fun g => (Finset.univ : Finset (Fin 100000)).fold min (Ideal.ofBits .f32 0x7F800000#32) g) (funext fun n => ?_)
    exact congrArg v0 (lift_eq d n)

theorem pay_max_apply (v0 : Vec Ideal S1x3x100000 .f32) (d : Fin 3) :
    k0_pay3 (F := Ideal) v0 (ix3 0 d 0)
      = (Finset.univ : Finset (Fin 100000)).fold max (Ideal.ofBits .f32 0xFF800000#32) (fun n => v0 (ix3 0 d n)) := by
  unfold k0_pay3 k0_pay1
  simp only [shapeCast_self]
  refine (shapeCast_apply _ shapeCasts_S1x3_S1x3x1 _ (ix2 0 d) ?_).trans ?_
  · rw [Shape.rowMajor_val_two, Shape.rowMajor_val_three]
    show 0 * 3 + d.val = (0 * 3 + d.val) * 1 + 0
    omega
  · refine (multiReduction_maximumf_eq_fold (F := Ideal) v0 _ reduces_S1x3x100000_S1x3 _ _ (ix2 0 d)).trans ?_
    refine (Shape.Reduces.fold_filter_drop_single reduces_S1x3x100000_S1x3 _ _ v0 (ix2 0 d)).trans ?_
    show (Finset.univ : Finset (Fin 100000)).fold max (Ideal.ofBits .f32 0xFF800000#32) (v0 ∘ Shape.Reduces.lift reduces_S1x3x100000_S1x3 (ix2 0 d)) = _
    refine congrArg (fun g => (Finset.univ : Finset (Fin 100000)).fold max (Ideal.ofBits .f32 0xFF800000#32) g) (funext fun n => ?_)
    exact congrArg v0 (lift_eq d n)

/-! ## One loop trip of the histogram body

The trip's payload is split in two: the clamped cells of the chunk's points (elementwise arithmetic over the chunk and
the box), and the product of the two one-hot matrices built from them, added to the carried accumulator. -/

/-- The clamped cells of a chunk's points: the first half of the trip's payload. -/
def cells (v0 : Vec Ideal S1x3x1 .f32) (v2 : Vec Ideal S1x3x1 .f32) (v18 : Vec Ideal S1x3x12500 .f32) : IVec S1x3x12500 32 :=
  have v1 : FVec Ideal S1x3x1 .f32 := shapeCast S1x3x1 v0 shapeCasts_S1x3x1_S1x3x1
  have v3 : FVec Ideal S1x3x1 .f32 := shapeCast S1x3x1 v2 shapeCasts_S1x3x1_S1x3x1
  have v4 : FVec Ideal S1x3x1 .f32 := subf v3 v1
  have cst : Ideal .f32 := Scalar.ofBits .f32 0x00000000#32
  have v5 : FVec Ideal S1x3x1 .f32 := broadcast S1x3x1 cst
  have v6 : IVec S1x3x1 1 := cmpf .ogt v4 v5
  have cst_5 : Ideal .f32 := Scalar.ofBits .f32 0x3F800000#32
  have v7 : FVec Ideal S1x3x1 .f32 := broadcast S1x3x1 cst_5
  have v8 : FVec Ideal S1x3x1 .f32 := select v6 v4 v7
  have cst_6 : Ideal .f32 := Scalar.ofBits .f32 0x41000000#32
  have v9 : FVec Ideal S1x3x1 .f32 := broadcast S1x3x1 cst_6
  have v10 : FVec Ideal S1x3x1 .f32 := divf v9 v8
  have v19 : FVec Ideal S1x3x12500 .f32 := shapeCast S1x3x12500 v18 shapeCasts_S1x3x12500_S1x3x12500
  have v20 : FVec Ideal S1x3x12500 .f32 := broadcastTo S1x3x12500 v1 broadcasts_S1x3x1_S1x3x12500
  have v21 : FVec Ideal S1x3x12500 .f32 := subf v19 v20
  have v22 : FVec Ideal S1x3x12500 .f32 := broadcastTo S1x3x12500 v10 broadcasts_S1x3x1_S1x3x12500
  have v23 : FVec Ideal S1x3x12500 .f32 := mulf v21 v22
  have v24 : FVec Ideal S1x3x12500 .f32 := floor v23
  have v25 : IVec S1x3x12500 32 := fptosi 32 v24
  have v26 : IVec S1x3x12500 32 := broadcast S1x3x12500 0#32
  have v27 : IVec S1x3x12500 32 := maxsi v26 v25
  have v28 : IVec S1x3x12500 32 := broadcast S1x3x12500 7#32
  have v29 : IVec S1x3x12500 32 := minsi v28 v27
  v29

/-- The second half: the one-hot matrices of the cells, multiplied and added to the accumulator. -/
def tally (v29 : IVec S1x3x12500 32) (arg6 : FVec Ideal S64x8 .f32) : FVec Ideal S64x8 .f32 :=
  have v30 : IVec S1x1x12500 32 := extractStridedSlice S1x1x12500 ![0, 0, 0] v29 slices_S1x3x12500_o0_0_0_S1x1x12500
  have v31 : IVec S12500 32 := shapeCast S12500 v30 shapeCasts_S1x1x12500_S12500
  have v32 : IVec S1x1x12500 32 := extractStridedSlice S1x1x12500 ![0, 1, 0] v29 slices_S1x3x12500_o0_1_0_S1x1x12500
  have v33 : IVec S12500 32 := shapeCast S12500 v32 shapeCasts_S1x1x12500_S12500
  have v34 : IVec S1x1x12500 32 := extractStridedSlice S1x1x12500 ![0, 2, 0] v29 slices_S1x3x12500_o0_2_0_S1x1x12500
  have v35 : IVec S12500 32 := shapeCast S12500 v34 shapeCasts_S1x1x12500_S12500
  have v36 : IVec S12500 32 := broadcast S12500 8#32
  have v37 : IVec S12500 32 := muli v31 v36
  have v38 : IVec S12500 32 := addi v37 v33
  have v39 : IVec S64x12500 32 := iota .tc S64x12500 32 [0] iota_S64x12500_d0_w32
  have v40 : IVec S1x12500 32 := shapeCast S1x12500 v38 shapeCasts_S12500_S1x12500
  have v41 : IVec S64x12500 32 := broadcastTo S64x12500 v40 broadcasts_S1x12500_S64x12500
  have v42 : IVec S64x12500 1 := cmpi .eq v39 v41
  have v43 : IVec S64x12500 32 := extui 32 v42 natLt_1_32
  have v44 : FVec Ideal S64x12500 .f32 := sitofp .f32 v43
  have v45 : FVec Ideal S64x12500 .bf16 := truncf .bf16 v44 bitsLt_bf16_f32
  have v46 : IVec S8x12500 32 := iota .tc S8x12500 32 [0] iota_S8x12500_d0_w32
  have v47 : IVec S1x12500 32 := shapeCast S1x12500 v35 shapeCasts_S12500_S1x12500
  have v48 : IVec S8x12500 32 := broadcastTo S8x12500 v47 broadcasts_S1x12500_S8x12500
  have v49 : IVec S8x12500 1 := cmpi .eq v46 v48
  have v50 : IVec S8x12500 32 := extui 32 v49 natLt_1_32
  have v51 : FVec Ideal S8x12500 .f32 := sitofp .f32 v50
  have v52 : FVec Ideal S8x12500 .bf16 := truncf .bf16 v51 bitsLt_bf16_f32
  have cst_16 : FVec Ideal S64x8 .f32 := constant S64x8 .f32 0x00000000#32
  have v53 : FVec Ideal S64x8 .f32 := matmul dot_S64x12500_S8x12500_S64x8_1_1_0_0_n_n none v45 v52 cst_16
  have v54 : FVec Ideal S64x8 .f32 := addf arg6 v53
  v54

/-- The trip's payload is the tally of the cells. -/
theorem pay2_eq (v0 v2 : Vec Ideal S1x3x1 .f32) (acc : FVec Ideal S64x8 .f32) (v18 : Vec Ideal S1x3x12500 .f32) :
    k1_pay2 (F := Ideal) v0 v2 acc v18 = tally (cells v0 v2 v18) acc := rfl

/-- A box column broadcast along the chunk's points reads the column. -/
theorem bcast_col (x : FVec Ideal S1x3x1 .f32) (d : Fin 3) (n : Fin 12500) :
    broadcastTo S1x3x12500 x broadcasts_S1x3x1_S1x3x12500 (ix3 0 d n) = x (ix3 0 d 0) :=
  broadcastTo_apply x broadcasts_S1x3x1_S1x3x12500 (ix3 0 d n) (ix3 0 d 0) (fun a => match a with
    | ⟨0, _⟩ => (if_pos rfl).symm
    | ⟨1, _⟩ => (if_neg (show ¬ (3 : Nat) = 1 by decide)).symm
    | ⟨2, _⟩ => (if_pos rfl).symm)

/-- Each cell of the chunk is the specification's cell of the point's coordinate in the box. -/
theorem cells_apply (v0 v2 : Vec Ideal S1x3x1 .f32) (v18 : Vec Ideal S1x3x12500 .f32) (d : Fin 3) (n : Fin 12500) :
    cells v0 v2 v18 (ix3 0 d n) = Cert.Hist.cellW (v18 (ix3 0 d n)) (v0 (ix3 0 d 0)) (v2 (ix3 0 d 0)) := by
  unfold cells
  simp only [shapeCast_self]
  show Cert.Hist.clampW (Ideal.fptosi 32 (Ideal.liftRound Int.floor
    ((v18 (ix3 0 d n) - broadcastTo S1x3x12500 v0 broadcasts_S1x3x1_S1x3x12500 (ix3 0 d n))
      * broadcastTo S1x3x12500 (fun j => Cert.Hist.scaleOf (v0 j) (v2 j)) broadcasts_S1x3x1_S1x3x12500 (ix3 0 d n)))) = _
  rw [bcast_col, bcast_col]
  rfl

/-! ### The one-hot entries -/

/-- The comparison of two words of numbers below 2 ^ 32, widened and converted, is the indicator of their equality. -/
theorem onehot (a b : ℕ) (ha : a < 2 ^ 32) (hb : b < 2 ^ 32) :
    ((((IntOp.cmpi .eq (BitVec.ofNat 32 a) (BitVec.ofNat 32 b)).setWidth 32).toInt : ℝ) : EReal)
      = if a = b then (1 : EReal) else 0 := by
  by_cases h : a = b
  · subst h
    have e : IntOp.cmpi .eq (BitVec.ofNat 32 a) (BitVec.ofNat 32 a) = 1#1 := by simp [IntOp.cmpi]
    rw [e, if_pos rfl]
    have e1 : ((1#1 : BitVec 1).setWidth 32).toInt = 1 := by decide
    rw [e1]; simp
  · have hne : BitVec.ofNat 32 a ≠ BitVec.ofNat 32 b := by
      intro e
      have e' := congrArg BitVec.toNat e
      rw [BitVec.toNat_ofNat, BitVec.toNat_ofNat, Nat.mod_eq_of_lt ha, Nat.mod_eq_of_lt hb] at e'
      exact h e'
    have hbeq : (BitVec.ofNat 32 a == BitVec.ofNat 32 b) = false := beq_eq_false_iff_ne.mpr hne
    have e : IntOp.cmpi .eq (BitVec.ofNat 32 a) (BitVec.ofNat 32 b) = 0#1 := by
      show BitVec.ofBool (BitVec.ofNat 32 a == BitVec.ofNat 32 b) = 0#1
      rw [hbeq]; rfl
    rw [e, if_neg h]
    have e0 : ((0#1 : BitVec 1).setWidth 32).toInt = 0 := by decide
    rw [e0]; simp

/-- Row `d` of the cells, cut out and flattened, reads the cells at `(0, d, n)`. -/
theorem row_apply (C : IVec S1x3x12500 32) (o : Nat) (h : S1x3x12500.Slices ![0, o, 0] S1x1x12500) (d : Fin 3)
    (hd : d.val = o) (n : Fin 12500) :
    shapeCast S12500 (extractStridedSlice S1x1x12500 ![0, o, 0] C h) shapeCasts_S1x1x12500_S12500 (ix1 n)
      = C (ix3 0 d n) := by
  refine (shapeCast_apply _ shapeCasts_S1x1x12500_S12500 (ix1 n) (ix3 0 0 n) ?_).trans ?_
  · rw [Shape.rowMajor_val_one, Shape.rowMajor_val_three]
    show (0 * 1 + 0) * 12500 + n.val = n.val
    omega
  · exact slice3_axis1_apply o C h 0 0 n d (by show d.val = o + 0; omega)

/-- A flat row of words laid over 64 rows reads the word at the column. -/
theorem over64 (w : IVec S12500 32) (r : Fin 64) (n : Fin 12500) :
    broadcastTo S64x12500 (shapeCast S1x12500 w shapeCasts_S12500_S1x12500) broadcasts_S1x12500_S64x12500 (ix2 r n)
      = w (ix1 n) :=
  (broadcastTo_1b_ab_apply _ broadcasts_S1x12500_S64x12500 r n).trans (shapeCast_a_1a_apply w _ 0 n)

/-- The same over 8 rows. -/
theorem over8 (w : IVec S12500 32) (c : Fin 8) (n : Fin 12500) :
    broadcastTo S8x12500 (shapeCast S1x12500 w shapeCasts_S12500_S1x12500) broadcasts_S1x12500_S8x12500 (ix2 c n)
      = w (ix1 n) :=
  (broadcastTo_1b_ab_apply _ broadcasts_S1x12500_S8x12500 c n).trans (shapeCast_a_1a_apply w _ 0 n)

/-- Words of small numbers add and multiply as the numbers do. -/
theorem word_pair (a b : ℕ) :
    IntOp.addi (IntOp.muli (BitVec.ofNat 32 a) 8#32) (BitVec.ofNat 32 b) = BitVec.ofNat 32 (a * 8 + b) := by
  unfold IntOp.addi IntOp.muli
  apply BitVec.eq_of_toNat_eq
  simp [BitVec.toNat_add, BitVec.toNat_mul, BitVec.toNat_ofNat]

/-! ### The product of the one-hot matrices -/

/-- The matrix product's operand indices on the axes it keeps: the output's row on the left, its column on the right. -/
theorem lhs_row (i : S64x8.Idx) (q : dot_S64x12500_S8x12500_S64x8_1_1_0_0_n_n.contr.Idx) :
    (dot_S64x12500_S8x12500_S64x8_1_1_0_0_n_n.lhsIdx i q 0).val = (i 0).val := by
  unfold DotDims.lhsIdx
  rw [dif_neg (show ¬(0 : Fin S64x12500.rank) ∈ dot_S64x12500_S8x12500_S64x8_1_1_0_0_n_n.lhsBatch by decide),
    dif_pos (show (0 : Fin S64x12500.rank) ∈ dot_S64x12500_S8x12500_S64x8_1_1_0_0_n_n.lhsNonContracting by decide)]
  rfl
theorem rhs_row (i : S64x8.Idx) (q : dot_S64x12500_S8x12500_S64x8_1_1_0_0_n_n.contr.Idx) :
    (dot_S64x12500_S8x12500_S64x8_1_1_0_0_n_n.rhsIdx i q 0).val = (i 1).val := by
  unfold DotDims.rhsIdx
  rw [dif_neg (show ¬(0 : Fin S8x12500.rank) ∈ dot_S64x12500_S8x12500_S64x8_1_1_0_0_n_n.rhsBatch by decide),
    dif_pos (show (0 : Fin S8x12500.rank) ∈ dot_S64x12500_S8x12500_S64x8_1_1_0_0_n_n.rhsNonContracting by decide)]
  rfl

/-- The tally at `(r, c)`, for cells that are words of numbers at most 7: the accumulator plus the number of the
    chunk's points whose bin is `r * 8 + c`. -/
theorem tally_apply (C : IVec S1x3x12500 32) (acc : FVec Ideal S64x8 .f32) (cN : Fin 3 → Fin 12500 → ℕ)
    (hC : ∀ d n, C (ix3 0 d n) = BitVec.ofNat 32 (cN d n)) (hle : ∀ d n, cN d n ≤ 7) (r : Fin 64) (c : Fin 8) :
    tally C acc (ix2 r c) = acc (ix2 r c) + ∑ n : Fin 12500,
      if (cN 0 n * 8 + cN 1 n) * 8 + cN 2 n = r.val * 8 + c.val then (1 : EReal) else 0 := by
  unfold tally
  show acc (ix2 r c) + FloatOps.matmul dot_S64x12500_S8x12500_S64x8_1_1_0_0_n_n none _ _
    (constant S64x8 .f32 0x00000000#32) (ix2 r c) = acc (ix2 r c) + _
  refine congrArg (acc (ix2 r c) + ·) ?_
  refine Eq.trans (Ideal.matmul_constant_zero_apply dot_S64x12500_S8x12500_S64x8_1_1_0_0_n_n none _ _ (ix2 r c)) ?_
  rw [← Equiv.sum_comp (contrEquiv1 dot_S64x12500_S8x12500_S64x8_1_1_0_0_n_n 12500 rfl rfl).symm]
  refine Finset.sum_congr rfl fun n _ => ?_
  have hk := contrEquiv1_symm_val dot_S64x12500_S8x12500_S64x8_1_1_0_0_n_n 12500 rfl rfl n
  have el : dot_S64x12500_S8x12500_S64x8_1_1_0_0_n_n.lhsIdx (ix2 r c)
      ((contrEquiv1 dot_S64x12500_S8x12500_S64x8_1_1_0_0_n_n 12500 rfl rfl).symm n) = ix2 r n :=
    funext fun a => Fin.ext (by
      match a with
      | ⟨0, _⟩ => exact lhs_row _ _
      | ⟨1, _⟩ => exact (dot_S64x12500_S8x12500_S64x8_1_1_0_0_n_n.lhsIdx_val_of_single rfl _ _).trans hk)
  have er : dot_S64x12500_S8x12500_S64x8_1_1_0_0_n_n.rhsIdx (ix2 r c)
      ((contrEquiv1 dot_S64x12500_S8x12500_S64x8_1_1_0_0_n_n 12500 rfl rfl).symm n) = ix2 c n :=
    funext fun a => Fin.ext (by
      match a with
      | ⟨0, _⟩ => exact rhs_row _ _
      | ⟨1, _⟩ => exact (dot_S64x12500_S8x12500_S64x8_1_1_0_0_n_n.rhsIdx_val_of_single rfl _ _).trans hk)
  rw [el, er]
  have h0 := hle 0 n
  have h1 := hle 1 n
  have h2 := hle 2 n
  -- the left factor: the row number against cell₀ * 8 + cell₁
  have eL : ∀ (x : IVec S12500 32), x (ix1 n) = BitVec.ofNat 32 (cN 0 n * 8 + cN 1 n) →
      ((((IntOp.cmpi .eq (iota .tc S64x12500 32 [0] iota_S64x12500_d0_w32 (ix2 r n))
        (broadcastTo S64x12500 (shapeCast S1x12500 x shapeCasts_S12500_S1x12500) broadcasts_S1x12500_S64x12500 (ix2 r n))).setWidth 32).toInt : ℝ) : EReal)
        = if r.val = cN 0 n * 8 + cN 1 n then (1 : EReal) else 0 := by
    intro x hx
    rw [iota_single_apply, over64, hx]
    exact onehot _ _ (by have := r.isLt; show r.val < 2 ^ 32; omega) (by omega)
  -- the right factor: the column number against cell₂
  have eR : ∀ (x : IVec S12500 32), x (ix1 n) = BitVec.ofNat 32 (cN 2 n) →
      ((((IntOp.cmpi .eq (iota .tc S8x12500 32 [0] iota_S8x12500_d0_w32 (ix2 c n))
        (broadcastTo S8x12500 (shapeCast S1x12500 x shapeCasts_S12500_S1x12500) broadcasts_S1x12500_S8x12500 (ix2 c n))).setWidth 32).toInt : ℝ) : EReal)
        = if c.val = cN 2 n then (1 : EReal) else 0 := by
    intro x hx
    rw [iota_single_apply, over8, hx]
    exact onehot _ _ (by have := c.isLt; show c.val < 2 ^ 32; omega) (by omega)
  have hx01 : (addi (muli (shapeCast S12500 (extractStridedSlice S1x1x12500 ![0, 0, 0] C slices_S1x3x12500_o0_0_0_S1x1x12500) shapeCasts_S1x1x12500_S12500)
      (broadcast S12500 8#32)) (shapeCast S12500 (extractStridedSlice S1x1x12500 ![0, 1, 0] C slices_S1x3x12500_o0_1_0_S1x1x12500) shapeCasts_S1x1x12500_S12500)) (ix1 n)
      = BitVec.ofNat 32 (cN 0 n * 8 + cN 1 n) := by
    show IntOp.addi (IntOp.muli (shapeCast S12500 (extractStridedSlice S1x1x12500 ![0, 0, 0] C slices_S1x3x12500_o0_0_0_S1x1x12500) shapeCasts_S1x1x12500_S12500 (ix1 n)) 8#32)
      (shapeCast S12500 (extractStridedSlice S1x1x12500 ![0, 1, 0] C slices_S1x3x12500_o0_1_0_S1x1x12500) shapeCasts_S1x1x12500_S12500 (ix1 n)) = _
    rw [row_apply C 0 _ 0 rfl n, row_apply C 1 _ 1 rfl n, hC, hC, word_pair]
  have hx2 : (shapeCast S12500 (extractStridedSlice S1x1x12500 ![0, 2, 0] C slices_S1x3x12500_o0_2_0_S1x1x12500) shapeCasts_S1x1x12500_S12500) (ix1 n)
      = BitVec.ofNat 32 (cN 2 n) := by
    rw [row_apply C 2 _ 2 rfl n, hC]
  refine (congrArg₂ (· * ·) (eL _ hx01) (eR _ hx2)).trans ?_
  have hr := r.isLt
  have hc := c.isLt
  by_cases hb : (cN 0 n * 8 + cN 1 n) * 8 + cN 2 n = r.val * 8 + c.val
  · rw [if_pos hb, if_pos (by omega), if_pos (by omega), mul_one]
  · rw [if_neg hb]
    by_cases hrr : r.val = cN 0 n * 8 + cN 1 n
    · rw [if_pos hrr, if_neg (by omega), mul_zero]
    · rw [if_neg hrr, zero_mul]

/-- (B1) One trip's payload at `(r, c)`: the accumulator plus the number of the chunk's points in bin `r * 8 + c`. -/
theorem pay2_apply (v0 v2 : Vec Ideal S1x3x1 .f32) (acc : FVec Ideal S64x8 .f32) (v18 : Vec Ideal S1x3x12500 .f32)
    (r : Fin 64) (c : Fin 8) :
    k1_pay2 (F := Ideal) v0 v2 acc v18 (ix2 r c) = acc (ix2 r c) + ∑ n : Fin 12500,
      if Cert.Hist.binN (fun d => v18 (ix3 0 d n)) (fun d => v0 (ix3 0 d 0)) (fun d => v2 (ix3 0 d 0)) = r.val * 8 + c.val
        then (1 : EReal) else 0 := by
  rw [pay2_eq]
  exact tally_apply (cells v0 v2 v18) acc
    (fun d n => Cert.Hist.cellN (v18 (ix3 0 d n)) (v0 (ix3 0 d 0)) (v2 (ix3 0 d 0)))
    (fun d n => (cells_apply v0 v2 v18 d n).trans (Cert.Hist.cellW_eq _ _ _))
    (fun d n => Cert.Hist.cellN_le _ _ _) r c

end Cert.Hist.Kern

end
-- ==== Proof.HistValue.lean ====
/-
  The kernel's histogram array is the specification's counts.

  Row b of the histogram array is the accumulator after eight trips over row b of the transposed points, with row b of
  the minima and maxima as the box. Trip k adds the tally of chunk k — the row's points k · 12500 + n — so after eight
  trips entry (r, c) is the number of the row's 100000 points whose bin is r · 8 + c. The transposition reads point n's
  coordinate d of batch b, the row's minimum and maximum columns are the batch's box, and position r · 8 + c of the
  row laid out as 512 entries is bin r · 8 + c: the array, read as 64 × 512, counts each batch's points per bin.
-/
import proofs.«115160_j65807488909790_2_alg».proof.Proof.KernelArrays
import proofs.«115160_j65807488909790_2_alg».proof.Proof.HistBlock
import proofs.«115160_j65807488909790_2_alg».proof.Proof.Spec
import Idealize.ShloMosaic.Lib.ValueIdx
import Idealize.ShloMosaic.Lib.Pipeline.Value
import Idealize.ShloMosaic.Lib.ValueLayout

noncomputable section

open scoped BigOperators

namespace Cert.Hist.KernVal

open Idealize.ShloMosaic Idealize.ShloMosaic.ValueIdx
open Cert.KernelIdeal Cert.KernelIdeal.Gen Cert.KernelIdeal.Arrays Cert.Hist.Kern

/-- The loop makes eight trips. -/
theorem trips_eq : k1_t1_loop.trips = 8 := by decide

/-- Chunk k of a row reads the row's points k * 12500 + n. -/
theorem chunk_apply (x0 : Vec Ideal S1x3x100000 .f32) (k : Fin k1_t1_loop.trips) (hk : k.val < 8) (d : Fin 3) (n : Fin 12500) :
    chunkOf x0 k (ix3 0 d n) = x0 (ix3 0 d ⟨k.val * 12500 + n.val, by have := n.isLt; omega⟩) := by
  have e := k1_off1_eq k
  have e0 : k1_off1 k 0 = 0 := by rw [e]; rfl
  have e1 : k1_off1 k 1 = 0 := by rw [e]; rfl
  have e2 : k1_off1 k 2 = 12500 * k.val := by rw [e]; rfl
  unfold chunkOf
  show x0 _ = x0 _
  refine congrArg x0 (funext fun a => Fin.ext ?_)
  match a with
  | ⟨0, _⟩ => show k1_off1 k 0 + 1 * 0 = 0; omega
  | ⟨1, _⟩ => show k1_off1 k 1 + 1 * d.val = d.val; omega
  | ⟨2, _⟩ => show k1_off1 k 2 + 1 * n.val = k.val * 12500 + n.val; omega

/-- Whether point m of a row falls in bin r * 8 + c of the box. -/
def hit (x0 : Vec Ideal S1x3x100000 .f32) (x1 x2 : Vec Ideal S1x3x1 .f32) (r : Fin 64) (c : Fin 8) (m : Fin 100000) : EReal :=
  if Cert.Hist.binN (fun d => x0 (ix3 0 d m)) (fun d => x1 (ix3 0 d 0)) (fun d => x2 (ix3 0 d 0)) = r.val * 8 + c.val
    then 1 else 0

/-- The number of chunk j's points in bin r * 8 + c (zero past the eighth chunk). -/
def chunkTally (x0 : Vec Ideal S1x3x100000 .f32) (x1 x2 : Vec Ideal S1x3x1 .f32) (r : Fin 64) (c : Fin 8) (j : ℕ) : EReal :=
  if h : j < 8 then ∑ n : Fin 12500, hit x0 x1 x2 r c ⟨j * 12500 + n.val, by have := n.isLt; omega⟩ else 0

/-- Before trip k the accumulator holds the tallies of the first k chunks. -/
theorem accum_apply (x0 : Vec Ideal S1x3x100000 .f32) (x1 x2 : Vec Ideal S1x3x1 .f32) (r : Fin 64) (c : Fin 8) (k : ℕ)
    (hk : k ≤ 8) : accum x0 x1 x2 k (ix2 r c) = ∑ j ∈ Finset.range k, chunkTally x0 x1 x2 r c j := by
  induction k with
  | zero =>
    rw [Finset.range_zero, Finset.sum_empty]
    exact pay1_apply _
  | succ k ih =>
    have h : k < k1_t1_loop.trips := by rw [trips_eq]; omega
    rw [accum, dif_pos h, pay2_apply, ih (by omega), Finset.sum_range_succ]
    refine congrArg (_ + ·) ?_
    unfold chunkTally
    rw [dif_pos (by omega)]
    refine Finset.sum_congr rfl fun n _ => ?_
    unfold hit
    have e : (fun d => chunkOf x0 ⟨k, h⟩ (ix3 0 d n))
        = fun d => x0 (ix3 0 d ⟨k * 12500 + n.val, by have := n.isLt; omega⟩) :=
      funext fun d => chunk_apply x0 ⟨k, h⟩ (by show k < 8; omega) d n
    rw [e]

/-- A row's minimum column is the specification's lower corner of the batch's box. -/
theorem lo_eq (x : Cert.Hist.SX.Idx → EReal) (xt : S64x3x100000.Idx → Elt Ideal .f32)
    (hxt : ∀ (b : Fin 64) (d : Fin 3) (n : Fin 100000), xt (ix3 b d n) = x (ix3 b n d)) (b : Fin 64) (d : Fin 3) :
    colOf (MinArr xt) b (ix3 0 d 0) = Cert.Hist.lo x b d := by
  show k0_pay2 (F := Ideal) (rowOf xt b) (ix3 0 d 0) = _
  rw [pay_min_apply]
  unfold Cert.Hist.lo
  exact congrArg (fun g => (Finset.univ : Finset (Fin 100000)).fold min (Ideal.ofBits .f32 0x7F800000#32) g)
    (funext fun n => hxt b d n)

/-- A row's maximum column is the upper corner. -/
theorem hi_eq (x : Cert.Hist.SX.Idx → EReal) (xt : S64x3x100000.Idx → Elt Ideal .f32)
    (hxt : ∀ (b : Fin 64) (d : Fin 3) (n : Fin 100000), xt (ix3 b d n) = x (ix3 b n d)) (b : Fin 64) (d : Fin 3) :
    colOf (MaxArr xt) b (ix3 0 d 0) = Cert.Hist.hi x b d := by
  show k0_pay3 (F := Ideal) (rowOf xt b) (ix3 0 d 0) = _
  rw [pay_max_apply]
  unfold Cert.Hist.hi
  exact congrArg (fun g => (Finset.univ : Finset (Fin 100000)).fold max (Ideal.ofBits .f32 0xFF800000#32) g)
    (funext fun n => hxt b d n)

/-- Entry (b, 0, q) of the histogram array counts batch b's points in bin q. -/
theorem hist_row (x : Cert.Hist.SX.Idx → EReal) (xt : S64x3x100000.Idx → Elt Ideal .f32)
    (hxt : ∀ (b : Fin 64) (d : Fin 3) (n : Fin 100000), xt (ix3 b d n) = x (ix3 b n d)) (b : Fin 64) (q : Fin 512) :
    HistArr (F := Ideal) xt (MinArr xt) (MaxArr xt) (ix3 b 0 q) = Cert.Hist.counts x (ix2 b q) := by
  obtain ⟨r, c, rfl⟩ : ∃ (r : Fin 64) (c : Fin 8), q = ⟨r.val * 8 + c.val, by have := r.isLt; have := c.isLt; omega⟩ :=
    ⟨⟨q.val / 8, by have := q.isLt; omega⟩, ⟨q.val % 8, Nat.mod_lt _ (by norm_num)⟩, Fin.ext (by
      show q.val = q.val / 8 * 8 + q.val % 8
      omega)⟩
  show k1_pay3 (F := Ideal) (accum (rowOf xt b) (colOf (MinArr xt) b) (colOf (MaxArr xt) b) k1_t1_loop.trips)
    (ix3 0 0 ⟨r.val * 8 + c.val, _⟩) = _
  rw [pay3_apply, accum_apply _ _ _ _ _ _ (le_of_eq trips_eq), trips_eq, ← Fin.sum_univ_eq_sum_range]
  refine (Finset.sum_congr rfl fun j _ =>
    (dif_pos j.isLt : chunkTally (rowOf xt b) (colOf (MinArr xt) b) (colOf (MaxArr xt) b) r c j.val = _)).trans ?_
  refine (sum_chunks (hit (rowOf xt b) (colOf (MinArr xt) b) (colOf (MaxArr xt) b) r c)).trans ?_
  show _ = ∑ n : Fin 100000, if Cert.Hist.binOf x b n = r.val * 8 + c.val then (1 : EReal) else 0
  refine Finset.sum_congr rfl fun m _ => ?_
  unfold hit Cert.Hist.binOf
  have e0 : (fun d => rowOf xt b (ix3 0 d m)) = fun d => x (ix3 b m d) := funext fun d => hxt b d m
  have e1 : (fun d => colOf (MinArr xt) b (ix3 0 d 0)) = Cert.Hist.lo x b := funext fun d => lo_eq x xt hxt b d
  have e2 : (fun d => colOf (MaxArr xt) b (ix3 0 d 0)) = Cert.Hist.hi x b := funext fun d => hi_eq x xt hxt b d
  rw [e0, e1, e2]

/-- The kernel's histogram array, read as 64 × 512, is the specification's counts. -/
theorem hist_eq (x : (⟨S64x100000x3, .f32⟩ : BufTy).Contents (Elt Ideal)) :
    shapeCast S64x512
      (Cert.KernelIdeal.Arrays.HistArr (F := Ideal)
        (transpose S64x3x100000 [0, 2, 1] x Gen.transposes_S64x100000x3_S64x3x100000_0_2_1)
        (Cert.KernelIdeal.Arrays.MinArr (transpose S64x3x100000 [0, 2, 1] x Gen.transposes_S64x100000x3_S64x3x100000_0_2_1))
        (Cert.KernelIdeal.Arrays.MaxArr (transpose S64x3x100000 [0, 2, 1] x Gen.transposes_S64x100000x3_S64x3x100000_0_2_1)))
      Gen.shapeCasts_S64x1x512_S64x512
    = Cert.Hist.counts x := by
  funext i
  obtain ⟨b, q, rfl⟩ : ∃ (b : Fin 64) (q : Fin 512), i = ix2 b q := ⟨i 0, i 1, eq_ix2 i⟩
  refine (shapeCast_apply _ Gen.shapeCasts_S64x1x512_S64x512 (ix2 b q) (ix3 b 0 q) ?_).trans ?_
  · rw [Shape.rowMajor_val_three, Shape.rowMajor_val_two]
    show (b.val * 1 + 0) * 512 + q.val = b.val * 512 + q.val
    omega
  · exact hist_row x _ (fun b d n => transpose_ix3_021_apply x Gen.transposes_S64x100000x3_S64x3x100000_0_2_1 b d n) b q

end Cert.Hist.KernVal

end
-- ==== Proof.LibSegmentSum.lean ====
/-
  The host's accumulating float scatter over ROW indices, read at one element, at the ideal instance.

  `jax.ops.segment_sum(data, ids, num_segments = N)` lowers to a `stablehlo.scatter` with an `add` body whose
  scatter indices are the ids as an [E, 1] column: update row `e` is added onto operand row `ids[e]`, column by
  column, and a row whose id (read signed) is outside [0, N) is dropped. On the extended reals the result is an exact
  sum, so element (r, c) of the result is the operand's element plus the sum over ALL e of "update (e, c) if
  ids[e] = r, else 0". Two shapes of it are read here: a rank-2 operand [N, C] with [E, C] updates (`rows_apply`),
  and a rank-1 operand [N] with [E] updates (`flat_apply`). Both right-hand sides are the same kind of sum over
  `Fin E`, which is what lets a proof compare a scatter of concatenated columns with the scatters of the parts.
-/
import Idealize.ShloMosaic.PureOps.Ideal
import Idealize.ShloMosaic.Lib.ValueIdx

noncomputable section

open scoped BigOperators

namespace Cert.Lib.SegmentSum

open Idealize.ShloMosaic Idealize.ShloMosaic.ValueIdx

/-! ## When an update element lands on a given operand element -/

/-- An update element lands on operand element `i` exactly when, on every operand axis, the window's start plus the
    element's window coordinate is `i`'s coordinate: inside the operand then, and nowhere else. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hh
      intro a
      have e := congrArg (fun f : s.Idx => (f a).val) (Option.some.inj h)
      have := hh a
      simp only at e
      omega
    · exact absurd h (by simp)
  · intro h
    have hh : ∀ a, 0 ≤ d.start j idx a + d.window j a ∧ d.start j idx a + d.window j a < s.size a := fun a => by
      have := h a; have := (i a).isLt; omega
    rw [dif_pos hh]
    refine congrArg some (funext fun a => Fin.ext ?_)
    have := h a
    show (d.start j idx a + d.window j a).toNat = (i a).val
    omega

/-- The scatter-index word that names the operand row of update row `e`, read signed. -/
abbrev rowOf {E w : Nat} (ids : IVec ⟨2, ![E, 1]⟩ w) (e : Fin E) : Int := (ids (ix2 e (0 : Fin 1))).toInt

/-- The sum of the entries `f e` over the update rows `e` whose id is `r`: one segment's sum. -/
def segSum {E N w : Nat} (ids : IVec ⟨2, ![E, 1]⟩ w) (f : Fin E → EReal) (r : Fin N) : EReal :=
  ∑ e : Fin E, if rowOf ids e = (r.val : Int) then f e else 0

theorem mem0 : (0 : Fin 2) ∈ ([0] : List (Fin 2)) := by decide
theorem nmem1 : (1 : Fin 2) ∉ ([0] : List (Fin 2)) := by decide
theorem kept0 : (0 : Fin 2) ∉ (List.finRange 2).filter (· ∉ ([0] : List (Fin 2))) := by decide
theorem kept1 : (1 : Fin 2) ∈ (List.finRange 2).filter (· ∉ ([0] : List (Fin 2))) := by decide
theorem mem0' : (0 : Fin 1) ∈ ([0] : List (Fin 1)) := by decide
theorem kept0' : (0 : Fin 1) ∉ (List.finRange 1).filter (· ∉ ([0] : List (Fin 1))) := by decide

/-! ## A rank-2 operand: rows of [E, C] updates added onto rows of [N, C] -/

section Rows
variable {N C E w : Nat} (wf : ScatterDims.WF ⟨2, ![N, C]⟩ ⟨2, ![E, 1]⟩ ⟨2, ![E, C]⟩ [1] [0] [0] 1)

/-- The dimension numbers of a row scatter: the updates' axis 1 is the window, operand axis 0 is inserted and is the
    one the index names, the index vector sits on the indices' axis 1. -/
abbrev rowsDims : ScatterDims ⟨2, ![N, C]⟩ ⟨2, ![E, 1]⟩ ⟨2, ![E, C]⟩ := ⟨[1], [0], [0], 1, wf⟩

theorem rows_start0 (ids : IVec ⟨2, ![E, 1]⟩ w) (e : Fin E) (c : Fin C) :
    (rowsDims wf).start (ix2 e c) ids 0 = rowOf ids e := by
  unfold ScatterDims.start
  refine (dif_pos mem0).trans ?_
  refine congrArg (fun z => (ids z).toInt) ?_
  funext b
  match b with
  | ⟨0, _⟩ => rfl
  | ⟨1, _⟩ => rfl

theorem rows_start1 (ids : IVec ⟨2, ![E, 1]⟩ w) (e : Fin E) (c : Fin C) :
    (rowsDims wf).start (ix2 e c) ids 1 = 0 := by
  unfold ScatterDims.start
  exact dif_neg nmem1

theorem rows_window0 (e : Fin E) (c : Fin C) : (rowsDims wf).window (ix2 e c) 0 = 0 := by
  unfold ScatterDims.window
  exact dif_neg kept0

theorem rows_window1 (e : Fin E) (c : Fin C) : (rowsDims wf).window (ix2 e c) 1 = c.val := by
  unfold ScatterDims.window
  exact (dif_pos kept1).trans rfl

/-- Update element (e, c) lands on operand element (r, c') exactly when row `e`'s id is `r` and the columns agree. -/
theorem rows_resultIdx (ids : IVec ⟨2, ![E, 1]⟩ w) (e : Fin E) (c : Fin C) (r : Fin N) (c' : Fin C) :
    (rowsDims wf).resultIdx? (ix2 e c) ids = some (ix2 r c') ↔ rowOf ids e = (r.val : Int) ∧ c = c' := by
  rw [resultIdx?_eq_some_iff]
  constructor
  · intro h
    have h0 : rowOf ids e + ((0 : Nat) : Int) = (r.val : Int) := by
      have := h 0; rw [rows_start0, rows_window0] at this; exact this
    have h1 : (0 : Int) + (c.val : Int) = (c'.val : Int) := by
      have := h 1; rw [rows_start1, rows_window1] at this; exact this
    exact ⟨by omega, Fin.ext (by omega)⟩
  · rintro ⟨hr, rfl⟩ a
    match a with
    | ⟨0, _⟩ =>
      show (rowsDims wf).start (ix2 e c) ids 0 + ((rowsDims wf).window (ix2 e c) 0 : Int) = (r.val : Int)
      rw [rows_start0, rows_window0]; omega
    | ⟨1, _⟩ =>
      show (rowsDims wf).start (ix2 e c) ids 1 + ((rowsDims wf).window (ix2 e c) 1 : Int) = (c.val : Int)
      rw [rows_start1, rows_window1]; omega

/-- ELEMENT (r, c) of a row scatter-add: the operand's element plus the segment sum of column `c` of the updates. -/
theorem rows_apply (x : (⟨2, ![N, C]⟩ : Shape).Idx → EReal) (ids : IVec ⟨2, ![E, 1]⟩ w)
    (upd : (⟨2, ![E, C]⟩ : Shape).Idx → EReal) (r : Fin N) (c : Fin C) :
    Ideal.hostScatterAdd (rowsDims wf) x ids upd (ix2 r c) = x (ix2 r c) + segSum ids (fun e => upd (ix2 e c)) r := by
  unfold Ideal.hostScatterAdd segSum
  refine congrArg (x (ix2 r c) + ·) ?_
  rw [Finset.sum_filter, sum_idx2]
  refine Finset.sum_congr rfl fun e _ => ?_
  simp only [rows_resultIdx]
  by_cases hit : rowOf ids e = (r.val : Int)
  · simp only [hit, true_and]
    rw [Finset.sum_ite_eq' Finset.univ c (fun c' => upd (ix2 e c'))]
    simp
  · simp [hit]

/-- The same for the host operation as a program prints it, with the program's own record of these dimension numbers. -/
theorem rows_apply_host (d : ScatterDims ⟨2, ![N, C]⟩ ⟨2, ![E, 1]⟩ ⟨2, ![E, C]⟩) (hd : d = rowsDims wf)
    (x : FVec Ideal ⟨2, ![N, C]⟩ .f32) (ids : IVec ⟨2, ![E, 1]⟩ w) (upd : FVec Ideal ⟨2, ![E, C]⟩ .f32) (r : Fin N) (c : Fin C) :
    Host.scatterAdd d x ids upd (ix2 r c) = x (ix2 r c) + segSum ids (fun e => upd (ix2 e c)) r := by
  subst hd
  exact rows_apply wf x ids upd r c

end Rows

/-! ## A rank-1 operand: [E] updates added onto [N] -/

section Flat
variable {N E w : Nat} (wf : ScatterDims.WF ⟨1, ![N]⟩ ⟨2, ![E, 1]⟩ ⟨1, ![E]⟩ [] [0] [0] 1)

/-- The dimension numbers of a scatter of scalars: no window axis, the operand's one axis inserted and named by the index. -/
abbrev flatDims : ScatterDims ⟨1, ![N]⟩ ⟨2, ![E, 1]⟩ ⟨1, ![E]⟩ := ⟨[], [0], [0], 1, wf⟩

theorem flat_start0 (ids : IVec ⟨2, ![E, 1]⟩ w) (e : Fin E) :
    (flatDims wf).start (ix1 e) ids 0 = rowOf ids e := by
  unfold ScatterDims.start
  refine (dif_pos mem0').trans ?_
  refine congrArg (fun z => (ids z).toInt) ?_
  funext b
  match b with
  | ⟨0, _⟩ => rfl
  | ⟨1, _⟩ => rfl

theorem flat_window0 (e : Fin E) : (flatDims wf).window (ix1 e) 0 = 0 := by
  unfold ScatterDims.window
  exact dif_neg kept0'

/-- Update element `e` lands on operand element `r` exactly when its id is `r`. -/
theorem flat_resultIdx (ids : IVec ⟨2, ![E, 1]⟩ w) (e : Fin E) (r : Fin N) :
    (flatDims wf).resultIdx? (ix1 e) ids = some (ix1 r) ↔ rowOf ids e = (r.val : Int) := by
  rw [resultIdx?_eq_some_iff]
  constructor
  · intro h
    have h0 : rowOf ids e + ((0 : Nat) : Int) = (r.val : Int) := by
      have := h 0; rw [flat_start0, flat_window0] at this; exact this
    omega
  · intro hr a
    match a with
    | ⟨0, _⟩ =>
      show (flatDims wf).start (ix1 e) ids 0 + ((flatDims wf).window (ix1 e) 0 : Int) = (r.val : Int)
      rw [flat_start0, flat_window0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- ELEMENT r of a scatter-add of scalars: the operand's element plus the segment sum of the updates. -/
theorem flat_apply (x : (⟨1, ![N]⟩ : Shape).Idx → EReal) (ids : IVec ⟨2, ![E, 1]⟩ w)
    (upd : (⟨1, ![E]⟩ : Shape).Idx → EReal) (r : Fin N) :
    Ideal.hostScatterAdd (flatDims wf) x ids upd (ix1 r) = x (ix1 r) + segSum ids (fun e => upd (ix1 e)) r := by
  unfold Ideal.hostScatterAdd segSum
  refine congrArg (x (ix1 r) + ·) ?_
  rw [Finset.sum_filter, sum_idx1]
  refine Finset.sum_congr rfl fun e _ => ?_
  simp only [flat_resultIdx]

/-- The same for the host operation as a program prints it, with the program's own record of these dimension numbers. -/
theorem flat_apply_host (d : ScatterDims ⟨1, ![N]⟩ ⟨2, ![E, 1]⟩ ⟨1, ![E]⟩) (hd : d = flatDims wf)
    (x : FVec Ideal ⟨1, ![N]⟩ .f32) (ids : IVec ⟨2, ![E, 1]⟩ w) (upd : FVec Ideal ⟨1, ![E]⟩ .f32) (r : Fin N) :
    Host.scatterAdd d x ids upd (ix1 r) = x (ix1 r) + segSum ids (fun e => upd (ix1 e)) r := by
  subst hd
  exact flat_apply wf x ids upd r

end Flat

end Cert.Lib.SegmentSum

end
-- ==== Proof.RefCounts.lean ====
/-
  The reference's histogram, read off its operations one at a time.

  Per batch b and coordinate d the two reductions over the points are the least and the greatest value (the box). A
  coordinate's chain — subtract the least value, multiply by 8 over the extent (over 1 where the extent is not
  positive), floor, convert to a 32-bit word, clamp to [0, 7] — is the cell word. The three cells of a point are
  combined into (c₀ · 8 + c₁) · 8 + c₂ and offset by 512 · b; all of these numbers are far below 2 ^ 31, so the 32-bit
  products and sums are the words of the numbers and, read signed, the numbers themselves. The scatter adds a one
  onto element r of a zero vector of length 64 · 512 for every flat point e whose word is r; element b · 512 + q
  therefore counts the flat points (b', n) with bin(b', n) + 512 · b' = 512 · b + q, and since a bin is below 512
  these are exactly the points n of batch b whose bin is q.
-/
import proofs.«115160_j65807488909790_2_alg».proof.Proof.Gen.ReferenceIdeal.Read
import proofs.«115160_j65807488909790_2_alg».proof.Proof.Spec
import proofs.«115160_j65807488909790_2_alg».proof.Proof.LibSegmentSum
import Idealize.ShloMosaic.PureOps.Reduce
import Idealize.ShloMosaic.PureOps.Ideal.Laws
import Idealize.ShloMosaic.Lib.ValueIdx
import Idealize.ShloMosaic.Lib.IdealHost

noncomputable section

open scoped BigOperators

namespace Cert.Hist.Ref

open Idealize.ShloMosaic Idealize.ShloMosaic.ValueIdx Cert.ReferenceIdeal Cert.ReferenceIdeal.Gen Cert.ReferenceIdeal.Read

theorem reduces1 : S64x100000x3.Reduces [1] S64x3 := by decide

theorem lift1 (b : Fin 64) (d : Fin 3) (k : Fin 100000) : reduces1.lift (ix2 b d) k = ix3 b k d := by
  funext c
  match c with
  | ⟨0, _⟩ => rfl
  | ⟨1, _⟩ => rfl
  | ⟨2, _⟩ => rfl

theorem v0_apply (x0 : (⟨S64x100000x3, .f32⟩ : BufTy).Contents (Elt Ideal)) (b : Fin 64) (d : Fin 3) :
    val_main_v0 (F := Ideal) x0 (ix2 b d) = Cert.Hist.lo x0 b d := by
  unfold val_main_v0
  refine (Host.reduce_eq_fold_single _ x0 _ reducesTo_S64x100000x3_S64x3_d1 reduces1 h_S_ (ix2 b d)).trans ?_
  unfold Cert.Hist.lo
  refine congrArg₂ (fun i f => (Finset.univ : Finset (Fin 100000)).fold min i f) rfl ?_
  funext k
  exact congrArg x0 (lift1 b d k)

theorem v2_apply (x0 : (⟨S64x100000x3, .f32⟩ : BufTy).Contents (Elt Ideal)) (b : Fin 64) (d : Fin 3) :
    val_main_v2 (F := Ideal) x0 (ix2 b d) = Cert.Hist.hi x0 b d := by
  unfold val_main_v2
  refine (Host.reduce_eq_fold_single _ x0 _ reducesTo_S64x100000x3_S64x3_d1 reduces1 h_S_ (ix2 b d)).trans ?_
  unfold Cert.Hist.hi
  refine congrArg₂ (fun i f => (Finset.univ : Finset (Fin 100000)).fold max i f) rfl ?_
  funext k
  exact congrArg x0 (lift1 b d k)

/-- The reference's chain for one coordinate, over plain extended reals, is the cell word. -/
theorem cell_chain (v l h : Ideal .f32) :
    IntOp.minsi (7#32)
      (IntOp.maxsi (0#32)
        (FloatOps.fptosi 32
          (FloatOps.hostUnary HostUnaryOp.floor
            (FloatOps.mulf (FloatOps.subf v l)
              (FloatOps.hostDivf (FloatOps.ofBits FTy.f32 0x41000000#32)
                (Scalar.select
                  (FloatOps.cmpf CmpFPredicate.ogt (FloatOps.subf h l) (FloatOps.ofBits FTy.f32 0x00000000#32))
                  (FloatOps.subf h l)
                  (FloatOps.ofBits FTy.f32 0x3F800000#32)))))))
      = Cert.Hist.cellW v l h := rfl

/-- The clamped cell word of coordinate d of point n of batch b. -/
theorem v16_apply (x0 : (⟨S64x100000x3, .f32⟩ : BufTy).Contents (Elt Ideal)) (b : Fin 64) (n : Fin 100000) (d : Fin 3) :
    val_main_v16 (F := Ideal) x0 (ix3 b n d)
      = Cert.Hist.cellW (x0 (ix3 b n d)) (Cert.Hist.lo x0 b d) (Cert.Hist.hi x0 b d) := by
  have e1 : idx_main_v1 (idx_main_v10 (ix3 b n d)) = ix2 b d := by
    funext a; match a with | ⟨0, _⟩ => rfl | ⟨1, _⟩ => rfl
  have e2 : idx_main_v1 (idx_main_v12 (ix3 b n d)) = ix2 b d := by
    funext a; match a with | ⟨0, _⟩ => rfl | ⟨1, _⟩ => rfl
  have e3 : idx_main_v3 (idx_main_v12 (ix3 b n d)) = ix2 b d := by
    funext a; match a with | ⟨0, _⟩ => rfl | ⟨1, _⟩ => rfl
  rewrite [val_main_v16_apply, val_main_call1_v4_apply, val_main_call1_v3_apply, val_main_c_4_apply,
    val_main_call1_v2_apply, val_main_call1_v1_apply, val_main_call1_v0_apply, val_main_c_apply,
    val_main_v15_apply, val_main_v14_apply, val_main_v13_apply, val_main_v11_apply, val_main_v10_apply,
    val_main_v1_apply, e1, v0_apply x0 b d]
  rewrite [val_main_v12_apply, val_main_v9_apply, val_main_v8_apply, val_main_cst_3_apply, val_main_v7_apply,
    val_main_v6_apply, val_main_v4_apply, val_main_v3_apply, e3, v2_apply x0 b d, val_main_v1_apply, e2,
    v0_apply x0 b d, val_main_v5_apply, val_main_cst_1_apply, val_main_call0_v1_apply, val_main_call0_v0_apply,
    val_main_cst_2_apply]
  generalize Cert.Hist.lo x0 b d = l
  generalize Cert.Hist.hi x0 b d = h
  generalize x0 (ix3 b n d) = v
  exact cell_chain v l h

/-- The reference's bin word over natural numbers: the 32-bit products and sums of small numbers are the word of the number. -/
theorem word_chain (c0 c1 c2 b : ℕ) :
    IntOp.addi (IntOp.addi (IntOp.muli (IntOp.addi (IntOp.muli (BitVec.ofNat 32 c0) (8#32)) (BitVec.ofNat 32 c1)) (8#32))
        (BitVec.ofNat 32 c2)) (IntOp.muli (BitVec.ofNat 32 b) (512#32))
      = BitVec.ofNat 32 ((c0 * 8 + c1) * 8 + c2 + b * 512) := by
  simp only [IntOp.addi, IntOp.muli, BitVec.ofNat_mul_ofNat, BitVec.ofNat_add_ofNat]

/-- The flat bin word of point n of batch b: its bin, offset by 512 per batch. -/
theorem v34_apply (x0 : (⟨S64x100000x3, .f32⟩ : BufTy).Contents (Elt Ideal)) (b : Fin 64) (n : Fin 100000) :
    val_main_v34 (F := Ideal) x0 (ix2 b n) = BitVec.ofNat 32 (Cert.Hist.binOf x0 b n + b.val * 512) := by
  have hb := b.isLt
  have hn := n.isLt
  have e17 : idx_main_v17 (idx_main_v18 (ix2 b n)) = ix3 b n (0 : Fin 3) := by
    funext a
    match a with
    | ⟨0, _⟩ => exact Fin.ext (by show (b.val * 100000 + n.val) / 100000 = b.val; omega)
    | ⟨1, _⟩ => exact Fin.ext (by show (b.val * 100000 + n.val) / 1 % 100000 = n.val; omega)
    | ⟨2, _⟩ => rfl
  have e21 : idx_main_v21 (idx_main_v22 (ix2 b n)) = ix3 b n (1 : Fin 3) := by
    funext a
    match a with
    | ⟨0, _⟩ => exact Fin.ext (by show (b.val * 100000 + n.val) / 100000 = b.val; omega)
    | ⟨1, _⟩ => exact Fin.ext (by show (b.val * 100000 + n.val) / 1 % 100000 = n.val; omega)
    | ⟨2, _⟩ => rfl
  have e26 : idx_main_v26 (idx_main_v27 (ix2 b n)) = ix3 b n (2 : Fin 3) := by
    funext a
    match a with
    | ⟨0, _⟩ => exact Fin.ext (by show (b.val * 100000 + n.val) / 100000 = b.val; omega)
    | ⟨1, _⟩ => exact Fin.ext (by show (b.val * 100000 + n.val) / 1 % 100000 = n.val; omega)
    | ⟨2, _⟩ => rfl
  have e29 : idx_main_v32 (idx_main_v33 (ix2 b n)) = ix1 b := by
    funext a; match a with | ⟨0, _⟩ => rfl
  rewrite [val_main_v34_apply, val_main_v28_apply, val_main_v25_apply, val_main_v23_apply, val_main_v20_apply,
    val_main_v18_apply, val_main_v17_apply, e17, val_main_v19_apply, val_main_c_5_apply,
    val_main_v22_apply, val_main_v21_apply, e21, val_main_v24_apply, val_main_c_6_apply,
    val_main_v27_apply, val_main_v26_apply, e26,
    val_main_v33_apply, val_main_v32_apply, val_main_v31_apply, val_main_v29_apply, e29, val_main_v30_apply,
    val_main_c_7_apply]
  rewrite [v16_apply x0 b n 0, v16_apply x0 b n 1, v16_apply x0 b n 2, Cert.Hist.cellW_eq, Cert.Hist.cellW_eq,
    Cert.Hist.cellW_eq]
  exact word_chain _ _ _ _

/-- A flat point number is a batch and a point of it. -/
def flatEquiv : Fin 64 × Fin 100000 ≃ Fin 6400000 where
  toFun p := ⟨p.1.val * 100000 + p.2.val, by have := p.1.isLt; have := p.2.isLt; omega⟩
  invFun e := (⟨e.val / 100000, by have := e.isLt; omega⟩, ⟨e.val % 100000, by omega⟩)
  left_inv p := by
    have h1 := p.1.isLt
    have h2 := p.2.isLt
    refine Prod.ext (Fin.ext ?_) (Fin.ext ?_)
    · show (p.1.val * 100000 + p.2.val) / 100000 = p.1.val; omega
    · show (p.1.val * 100000 + p.2.val) % 100000 = p.2.val; omega
  right_inv e := by
    refine Fin.ext ?_
    show e.val / 100000 * 100000 + e.val % 100000 = e.val; omega

theorem flatEquiv_val (b : Fin 64) (n : Fin 100000) : (flatEquiv (b, n)).val = b.val * 100000 + n.val := rfl

/-- The scatter index of flat point (b, n): its bin, offset by 512 per batch. -/
theorem v38_apply (x0 : (⟨S64x100000x3, .f32⟩ : BufTy).Contents (Elt Ideal)) (b : Fin 64) (n : Fin 100000) :
    val_main_v38 (F := Ideal) x0 (ix2 (flatEquiv (b, n)) (0 : Fin 1))
      = BitVec.ofNat 32 (Cert.Hist.binOf x0 b n + b.val * 512) := by
  have hb := b.isLt
  have hn := n.isLt
  have e : idx_main_v36 (idx_main_v38 (ix2 (flatEquiv (b, n)) (0 : Fin 1))) = ix2 b n := by
    funext a
    match a with
    | ⟨0, _⟩ => exact Fin.ext (by show (flatEquiv (b, n)).val / 100000 = b.val; rw [flatEquiv_val]; omega)
    | ⟨1, _⟩ => exact Fin.ext (by show (flatEquiv (b, n)).val % 100000 = n.val; rw [flatEquiv_val]; omega)
  rewrite [val_main_v38_apply, val_main_v36_apply, e]
  exact v34_apply x0 b n

/-- Read signed, that index is the number itself: it is below 2 ^ 31. -/
theorem rowOf_v38 (x0 : (⟨S64x100000x3, .f32⟩ : BufTy).Contents (Elt Ideal)) (b : Fin 64) (n : Fin 100000) :
    Cert.Lib.SegmentSum.rowOf (val_main_v38 (F := Ideal) x0) (flatEquiv (b, n))
      = ((Cert.Hist.binOf x0 b n + b.val * 512 : ℕ) : Int) := by
  have hb := b.isLt
  have hq : Cert.Hist.binOf x0 b n < 512 := Cert.Hist.binN_lt _ _ _
  show (val_main_v38 (F := Ideal) x0 (ix2 (flatEquiv (b, n)) (0 : Fin 1))).toInt = _
  rewrite [v38_apply x0 b n]
  generalize Cert.Hist.binOf x0 b n = q at hq ⊢
  have htn : (BitVec.ofNat 32 (q + b.val * 512)).toNat = q + b.val * 512 := by
    rw [BitVec.toNat_ofNat]; exact Nat.mod_eq_of_lt (by omega)
  rw [BitVec.toInt_eq_toNat_of_lt (by rw [htn]; omega), htn]

/-- The accumulator the scatter starts from is zero everywhere. -/
theorem v37_apply (r : Fin 32768) : val_main_v37 (F := Ideal) (ix1 r) = 0 := by
  rewrite [val_main_v37_apply, val_main_cst_9_apply]
  exact Ideal.ofBits_zero_f32

/-- Every update is one. -/
theorem v35_apply (e : Fin 6400000) : val_main_v35 (F := Ideal) (ix1 e) = 1 := by
  rewrite [val_main_v35_apply, val_main_cst_8_apply]
  exact Ideal.ofBits_one_f32

/-- The reshaped scatter result at (b, q) is the number of points of batch b whose bin is q. -/
theorem val_v40_eq (x0 : (⟨Cert.ReferenceIdeal.S64x100000x3, .f32⟩ : BufTy).Contents (Elt Ideal)) :
    Cert.ReferenceIdeal.Read.val_main_v40 (F := Ideal) x0 = Cert.Hist.counts x0 := by
  funext i
  obtain ⟨b, q, rfl⟩ : ∃ (b : Fin 64) (q : Fin 512), i = ix2 b q := ⟨i 0, i 1, eq_ix2 i⟩
  have hb := b.isLt
  have hq := q.isLt
  have e40 : idx_main_v40 (ix2 b q) = ix1 (⟨b.val * 512 + q.val, by omega⟩ : Fin 32768) := by
    funext a; match a with | ⟨0, _⟩ => rfl
  rewrite [val_main_v40_apply, e40]
  unfold val_main_v39
  refine (Cert.Lib.SegmentSum.flat_apply_host scatter_S32768_S6400000x1_S6400000_n_0_0_1.wf
    scatter_S32768_S6400000x1_S6400000_n_0_0_1 rfl _ _ _ _).trans ?_
  rewrite [v37_apply, zero_add]
  unfold Cert.Lib.SegmentSum.segSum Cert.Hist.counts
  rewrite [← Equiv.sum_comp flatEquiv, Fintype.sum_prod_type, Finset.sum_eq_single b]
  · refine Finset.sum_congr rfl fun n _ => ?_
    rewrite [rowOf_v38 x0 b n]
    beta_reduce
    rewrite [v35_apply]
    have hbin : Cert.Hist.binOf x0 b n < 512 := Cert.Hist.binN_lt _ _ _
    show (if ((Cert.Hist.binOf x0 b n + b.val * 512 : ℕ) : Int) = ((b.val * 512 + q.val : ℕ) : Int) then (1 : EReal) else 0)
      = if Cert.Hist.binOf x0 b n = q.val then (1 : EReal) else 0
    generalize Cert.Hist.binOf x0 b n = k at hbin ⊢
    refine if_congr ⟨fun h => by omega, fun h => by omega⟩ rfl rfl
  · intro b' _ hne
    refine Finset.sum_eq_zero fun n _ => ?_
    rewrite [rowOf_v38 x0 b' n]
    beta_reduce
    rewrite [v35_apply]
    have hbin : Cert.Hist.binOf x0 b' n < 512 := Cert.Hist.binN_lt _ _ _
    have hb' := b'.isLt
    refine if_neg fun h => hne (Fin.ext ?_)
    have h' : ((Cert.Hist.binOf x0 b' n + b'.val * 512 : ℕ) : Int) = ((b.val * 512 + q.val : ℕ) : Int) := h
    generalize Cert.Hist.binOf x0 b' n = k at hbin h'
    omega
  · intro h; exact absurd (Finset.mem_univ b) h

end Cert.Hist.Ref

end
-- ==== Proof.lean ====
/-
  Per batch of 100000 points in space, both programs bin the points on an 8 × 8 × 8 grid stretched over the batch's
  bounding box, divide the 512 counts by the number of points and apply one linear layer (512 → 40, plus a bias).

  The kernel transposes the points so that the point axis is last, finds each batch's per-coordinate minimum and
  maximum in a first pass, and in a second pass tallies the bins of a batch in eight chunks of 12500 points: a chunk's
  tally is the product of two one-hot matrices, (cell₀ · 8 + cell₁ against 64 rows) × (cell₂ against 8 rows)ᵀ,
  summed over the chunk's points, so entry (r, c) counts the points with cell₀ · 8 + cell₁ = r and cell₂ = c. The
  reference computes every point's flat bin (cell₀ · 8 + cell₁) · 8 + cell₂, shifted by 512 per batch, and adds a one
  at that position of a 32768-vector. On the extended reals sums are exact and may be regrouped freely, the cells are
  words clamped to [0, 7] on both sides and are computed by the same operations from the same minima and maxima, so
  both histograms are the one function `Cert.Hist.counts` of the points (Proof/Spec.lean): the kernel's by
  `Cert.Hist.Kern.hist_eq`, the reference's by `Cert.Hist.Ref.val_v40_eq`. From the histogram on, the two
  programs apply the same operations. No step needs the inputs to be finite.

  The three frames: the two kernels' are the generated frame certificates; the reference has no kernel, and its frame
  is its run with the result dropped. The idealization rewrote nothing, so `preserves` has nothing to state.
-/
import proofs.«115160_j65807488909790_2_alg».proof.Defs
import proofs.«115160_j65807488909790_2_alg».proof.Proof.Gen.Kernel
import proofs.«115160_j65807488909790_2_alg».proof.Proof.Gen.Kernel.Skeleton
import proofs.«115160_j65807488909790_2_alg».proof.Proof.Gen.Kernel.Loops
import proofs.«115160_j65807488909790_2_alg».proof.Proof.Gen.Kernel.Launch
import proofs.«115160_j65807488909790_2_alg».proof.Proof.Gen.Kernel.Points
import proofs.«115160_j65807488909790_2_alg».proof.Proof.Gen.Kernel.Frame
import proofs.«115160_j65807488909790_2_alg».proof.Proof.Gen.KernelIdeal
import proofs.«115160_j65807488909790_2_alg».proof.Proof.Gen.KernelIdeal.Skeleton
import proofs.«115160_j65807488909790_2_alg».proof.Proof.Gen.KernelIdeal.Loops
import proofs.«115160_j65807488909790_2_alg».proof.Proof.Gen.KernelIdeal.Launch
import proofs.«115160_j65807488909790_2_alg».proof.Proof.Gen.KernelIdeal.Points
import proofs.«115160_j65807488909790_2_alg».proof.Proof.Gen.KernelIdeal.Frame
import proofs.«115160_j65807488909790_2_alg».proof.Proof.Gen.ReferenceIdeal
import proofs.«115160_j65807488909790_2_alg».proof.Proof.Gen.Pre_finite_inputs
import proofs.«115160_j65807488909790_2_alg».proof.Proof.Gen.ReferenceIdeal.Run
import proofs.«115160_j65807488909790_2_alg».proof.Proof.Gen.ReferenceIdeal.Read
import proofs.«115160_j65807488909790_2_alg».proof.Proof.KernelValue
import proofs.«115160_j65807488909790_2_alg».proof.Proof.HistValue
import proofs.«115160_j65807488909790_2_alg».proof.Proof.RefCounts
import Idealize.ShloMosaic.Adequacy
import Idealize.ShloMosaic.Init

noncomputable section

namespace Cert.Proof

open Idealize.ShloMosaic Idealize.SL.Sem

/-- The kernel's result and the reference's are one function of the arguments: both histograms are
    `Cert.Hist.counts` of the points, and the operations after the histogram are the same on both sides. -/
theorem result_eq (x : (⟨Cert.KernelIdeal.S64x100000x3, .f32⟩ : BufTy).Contents (Elt Ideal))
    (w : (⟨Cert.KernelIdeal.S40x512, .f32⟩ : BufTy).Contents (Elt Ideal))
    (bb : (⟨Cert.KernelIdeal.S40, .f32⟩ : BufTy).Contents (Elt Ideal)) :
    Cert.KernelIdeal.Result.result (F := Ideal) x w bb = Cert.ReferenceIdeal.Read.val_main_v47 (F := Ideal) x w bb := by
  unfold Cert.KernelIdeal.Result.result Cert.KernelIdeal.Result.tail Cert.KernelIdeal.Result.pointsT
  unfold Cert.ReferenceIdeal.Read.val_main_v47 Cert.ReferenceIdeal.Read.val_main_v44 Cert.ReferenceIdeal.Read.val_main_v42
    Cert.ReferenceIdeal.Read.val_main_v46 Cert.ReferenceIdeal.Read.val_main_v45 Cert.ReferenceIdeal.Read.val_main_v43
    Cert.ReferenceIdeal.Read.val_main_v41 Cert.ReferenceIdeal.Read.val_main_cst_10
  rw [Cert.Hist.KernVal.hist_eq x, Cert.Hist.Ref.val_v40_eq x]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs run, and the kernel's result buffer ends at the function
    of the arguments the reference's ends at. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2]
  exact (result_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
